-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x32x1152x16 : Shape := ⟨4, ![64, 32, 1152, 16]⟩
abbrev S_ : Shape := ⟨0, ![]⟩

class Facts : Prop where
  bcast_S_S64x32x1152x16 : S_.BroadcastsInDim S64x32x1152x16 (![] : Fin 0 → Fin S64x32x1152x16.rank)
  reducesTo_S64x32x1152x16_S_d0_1_2_3 : S64x32x1152x16.ReducesTo [0, 1, 2, 3] S_
  h_S_ : 0 < S_.numel

variable [Facts]

def fn {F : FTy → Type} [FloatOps F] (main_arg0 : FVec F S64x32x1152x16 .f32) : IVec S_ 1 :=
  let main_v0 : FVec F S64x32x1152x16 .f32 := Host.absf main_arg0
  let main_cst : FVec F S_ .f32 := constant S_ .f32 0x7F800000#32
  let main_v1 : FVec F S64x32x1152x16 .f32 := broadcastInDim S64x32x1152x16 ![] bcast_S_S64x32x1152x16 main_cst
  let main_v2 : IVec S64x32x1152x16 1 := cmpf .olt main_v0 main_v1
  let main_c : IVec S_ 1 := constantI S_ 1 1#1
  let main_v3 : IVec S_ 1 := (fun x v => Host.reduce IntOp.andi x v reducesTo_S64x32x1152x16_S_d0_1_2_3 h_S_) main_v2 main_c
  main_v3
-- ==== Kernel.lean ====
abbrev S64x32x1152x16 : Shape := ⟨4, ![64, 32, 1152, 16]⟩
abbrev S2048x1152x16 : Shape := ⟨3, ![2048, 1152, 16]⟩
abbrev S2048x16 : Shape := ⟨2, ![2048, 16]⟩
abbrev S16x1152x16 : Shape := ⟨3, ![16, 1152, 16]⟩
abbrev S16x16 : Shape := ⟨2, ![16, 16]⟩
abbrev S16x1152 : Shape := ⟨2, ![16, 1152]⟩
abbrev S16 : Shape := ⟨1, ![16]⟩
abbrev S16x1 : Shape := ⟨2, ![16, 1]⟩
abbrev S16x1152x1 : Shape := ⟨3, ![16, 1152, 1]⟩
abbrev S16x1x16 : Shape := ⟨3, ![16, 1, 16]⟩
abbrev S64x32x1x16 : Shape := ⟨4, ![64, 32, 1, 16]⟩

abbrev nBuf : Space → Nat
  | .hbm => 4
  | .vmem => 4
  | .smem => 0
  | _ => 0

abbrev bufTy : (tb : Table) → Fin (tcTables nBuf tb) → BufTy
  | .hbm, ⟨0, _⟩ => ⟨S64x32x1152x16, .f32⟩
  | .hbm, ⟨1, _⟩ => ⟨S2048x1152x16, .f32⟩
  | .hbm, ⟨2, _⟩ => ⟨S2048x16, .f32⟩
  | .hbm, ⟨3, _⟩ => ⟨S64x32x1x16, .f32⟩
  | .local _ .vmem, ⟨0, _⟩ => ⟨S16x1152x16, .f32⟩
  | .local _ .vmem, ⟨1, _⟩ => ⟨S16x1152x16, .f32⟩
  | .local _ .vmem, ⟨2, _⟩ => ⟨S16x16, .f32⟩
  | .local _ .vmem, ⟨3, _⟩ => ⟨S16x16, .f32⟩
  | _, _ => ⟨S64x32x1152x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x1152x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S64x32x1152x16_S2048x1152x16 : S64x32x1152x16.ShapeCasts S2048x1152x16
  inb_S16x1152x16_S16x1152x16_0_0_0 : ∀ a, (![0, 0, 0] : Fin 3 → Nat) a + S16x1152x16.size a ≤ S16x1152x16.size a
  h_S16x1152x16 : 0 < S16x1152x16.numel
  shapeCasts_S16x1152x16_S16x1152x16 : S16x1152x16.ShapeCasts S16x1152x16
  reduces_S16x1152_S16 : S16x1152.Reduces [1] S16
  shapeCasts_S16_S16x1 : S16.ShapeCasts S16x1
  broadcasts_S16x1_S16x1152 : S16x1.Broadcasts S16x1152
  shapeCasts_S16x1152_S16x1152x1 : S16x1152.ShapeCasts S16x1152x1
  broadcasts_S16x1152x1_S16x1152x16 : S16x1152x1.Broadcasts S16x1152x16
  reduces_S16x1152x16_S16x16 : S16x1152x16.Reduces [1] S16x16
  reduces_S16x16_S16 : S16x16.Reduces [1] S16
  broadcasts_S16x1_S16x16 : S16x1.Broadcasts S16x16
  shapeCasts_S16x16_S16x1x16 : S16x16.ShapeCasts S16x1x16
  broadcasts_S16x1x16_S16x1152x16 : S16x1x16.Broadcasts S16x1152x16
  reduces_S16x1152x16_S16x1152 : S16x1152x16.Reduces [2] S16x1152
  inb_S16x16_S16x16_0_0 : ∀ a, (![0, 0] : Fin 2 → Nat) a + S16x16.size a ≤ S16x16.size a
  h_S16x16 : 0 < S16x16.numel
  shapeCasts_S2048x16_S64x32x1x16 : S2048x16.ShapeCasts S64x32x1x16
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x1152x16.size a ≤ S2048x1152x16.size a
  hwx0_0 : ∀ i : grid0.Coords, EltTy.bits .f32 = 32 ∨ (Rect.block (s := S2048x1152x16) S16x1152x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x16.size a ≤ S2048x16.size a
  hwx0_1 : ∀ i : grid0.Coords, EltTy.bits .f32 = 32 ∨ (Rect.block (s := S2048x16) S16x16.size (cc0_transform_1 i) (hinb0_1 i)).WholeWords (EltTy.packing .f32)

variable [Facts₀]

abbrev win0_0 : Pipeline.Window sig grid0 :=
  Pipeline.Window.ofSpec (Memref.whole main_v0) S16x1152x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x16.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x32x1152x16 : Shape := ⟨4, ![64, 32, 1152, 16]⟩
abbrev S_ : Shape := ⟨0, ![]⟩
abbrev S64x32x1152x1 : Shape := ⟨4, ![64, 32, 1152, 1]⟩
abbrev S64x32x1 : Shape := ⟨3, ![64, 32, 1]⟩
abbrev S64x32x1x1 : Shape := ⟨4, ![64, 32, 1, 1]⟩
abbrev S64x32x16 : Shape := ⟨3, ![64, 32, 16]⟩
abbrev S64x32x1x16 : Shape := ⟨4, ![64, 32, 1, 16]⟩

abbrev nBuf : Space → Nat
  | .hbm => 75
  | .vmem => 0
  | .smem => 0
  | _ => 0

abbrev bufTy : (tb : Table) → Fin (tcTables nBuf tb) → BufTy
  | .hbm, ⟨0, _⟩ => ⟨S64x32x1152x16, .f32⟩
  | .hbm, ⟨1, _⟩ => ⟨S_, .f32⟩
  | .hbm, ⟨2, _⟩ => ⟨S64x32x1152x1, .f32⟩
  | .hbm, ⟨3, _⟩ => ⟨S_, .f32⟩
  | .hbm, ⟨4, _⟩ => ⟨S64x32x1, .f32⟩
  | .hbm, ⟨5, _⟩ => ⟨S_, .f32⟩
  | .hbm, ⟨6, _⟩ => ⟨S64x32x1, .f32⟩
  | .hbm, ⟨7, _⟩ => ⟨S64x32x1, .f32⟩
  | .hbm, ⟨8, _⟩ => ⟨S64x32x1x1, .f32⟩
  | .hbm, ⟨9, _⟩ => ⟨S64x32x1152x1, .f32⟩
  | .hbm, ⟨10, _⟩ => ⟨S64x32x1152x1, .f32⟩
  | .hbm, ⟨11, _⟩ => ⟨S64x32x1152x1, .f32⟩
  | .hbm, ⟨12, _⟩ => ⟨S_, .f32⟩
  | .hbm, ⟨13, _⟩ => ⟨S64x32x1, .f32⟩
  | .hbm, ⟨14, _⟩ => ⟨S64x32x1x1, .f32⟩
  | .hbm, ⟨15, _⟩ => ⟨S64x32x1152x1, .f32⟩
  | .hbm, ⟨16, _⟩ => ⟨S64x32x1152x1, .f32⟩
  | .hbm, ⟨17, _⟩ => ⟨S64x32x1152x16, .f32⟩
  | .hbm, ⟨18, _⟩ => ⟨S64x32x1152x16, .f32⟩
  | .hbm, ⟨19, _⟩ => ⟨S_, .f32⟩
  | .hbm, ⟨20, _⟩ => ⟨S64x32x16, .f32⟩
  | .hbm, ⟨21, _⟩ => ⟨S64x32x1x16, .f32⟩
  | .hbm, ⟨22, _⟩ => ⟨S64x32x1x16, .f32⟩
  | .hbm, ⟨23, _⟩ => ⟨S_, .f32⟩
  | .hbm, ⟨24, _⟩ => ⟨S64x32x1, .f32⟩
  | .hbm, ⟨25, _⟩ => ⟨S64x32x1x1, .f32⟩
  | .hbm, ⟨26, _⟩ => ⟨S_, .f32⟩
  | .hbm, ⟨27, _⟩ => ⟨S64x32x1x1, .f32⟩
  | .hbm, ⟨28, _⟩ => ⟨S64x32x1x1, .f32⟩
  | .hbm, ⟨29, _⟩ => ⟨S64x32x1x1, .f32⟩
  | .hbm, ⟨30, _⟩ => ⟨S_, .f32⟩
  | .hbm, ⟨31, _⟩ => ⟨S64x32x1x1, .f32⟩
  | .hbm, ⟨32, _⟩ => ⟨S64x32x1x1, .f32⟩
  | .hbm, ⟨33, _⟩ => ⟨S64x32x1x16, .f32⟩
  | .hbm, ⟨34, _⟩ => ⟨S64x32x1x16, .f32⟩
  | .hbm, ⟨35, _⟩ => ⟨S64x32x1x16, .f32⟩
  | .hbm, ⟨36, _⟩ => ⟨S64x32x1x16, .f32⟩
  | .hbm, ⟨37, _⟩ => ⟨S64x32x1152x1, .f32⟩
  | .hbm, ⟨38, _⟩ => ⟨S64x32x1152x1, .f32⟩
  | .hbm, ⟨39, _⟩ => ⟨S_, .f32⟩
  | .hbm, ⟨40, _⟩ => ⟨S64x32x1, .f32⟩
  | .hbm, ⟨41, _⟩ => ⟨S_, .f32⟩
  | .hbm, ⟨42, _⟩ => ⟨S64x32x1, .f32⟩
  | .hbm, ⟨43, _⟩ => ⟨S64x32x1, .f32⟩
  | .hbm, ⟨44, _⟩ => ⟨S64x32x1x1, .f32⟩
  | .hbm, ⟨45, _⟩ => ⟨S64x32x1152x1, .f32⟩
  | .hbm, ⟨46, _⟩ => ⟨S64x32x1152x1, .f32⟩
  | .hbm, ⟨47, _⟩ => ⟨S64x32x1152x1, .f32⟩
  | .hbm, ⟨48, _⟩ => ⟨S_, .f32⟩
  | .hbm, ⟨49, _⟩ => ⟨S64x32x1, .f32⟩
  | .hbm, ⟨50, _⟩ => ⟨S64x32x1x1, .f32⟩
  | .hbm, ⟨51, _⟩ => ⟨S64x32x1152x1, .f32⟩
  | .hbm, ⟨52, _⟩ => ⟨S64x32x1152x1, .f32⟩
  | .hbm, ⟨53, _⟩ => ⟨S64x32x1152x16, .f32⟩
  | .hbm, ⟨54, _⟩ => ⟨S64x32x1152x16, .f32⟩
  | .hbm, ⟨55, _⟩ => ⟨S_, .f32⟩
  | .hbm, ⟨56, _⟩ => ⟨S64x32x16, .f32⟩
  | .hbm, ⟨57, _⟩ => ⟨S64x32x1x16, .f32⟩
  | .hbm, ⟨58, _⟩ => ⟨S64x32x1x16, .f32⟩
  | .hbm, ⟨59, _⟩ => ⟨S_, .f32⟩
  | .hbm, ⟨60, _⟩ => ⟨S64x32x1, .f32⟩
  | .hbm, ⟨61, _⟩ => ⟨S64x32x1x1, .f32⟩
  | .hbm, ⟨62, _⟩ => ⟨S_, .f32⟩
  | .hbm, ⟨63, _⟩ => ⟨S64x32x1x1, .f32⟩
  | .hbm, ⟨64, _⟩ => ⟨S64x32x1x1, .f32⟩
  | .hbm, ⟨65, _⟩ => ⟨S64x32x1x1, .f32⟩
  | .hbm, ⟨66, _⟩ => ⟨S_, .f32⟩
  | .hbm, ⟨67, _⟩ => ⟨S64x32x1x1, .f32⟩
  | .hbm, ⟨68, _⟩ => ⟨S64x32x1x1, .f32⟩
  | .hbm, ⟨69, _⟩ => ⟨S64x32x1x16, .f32⟩
  | .hbm, ⟨70, _⟩ => ⟨S64x32x1x16, .f32⟩
  | .hbm, ⟨71, _⟩ => ⟨S64x32x1x16, .f32⟩
  | .hbm, ⟨72, _⟩ => ⟨S64x32x1x16, .f32⟩
  | .hbm, ⟨73, _⟩ => ⟨S64x32x1152x1, .f32⟩
  | .hbm, ⟨74, _⟩ => ⟨S64x32x1152x1, .f32⟩
  | _, _ => ⟨S64x32x1152x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_cst_1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_3 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_4 : Ref sig .tc := ⟨.hbm, 23, rfl⟩
abbrev main_v17 : Ref sig .tc := ⟨.hbm, 24, rfl⟩
abbrev main_v18 : Ref sig .tc := ⟨.hbm, 25, rfl⟩
abbrev main_cst_5 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_6 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_7 : Ref sig .tc := ⟨.hbm, 39, rfl⟩
abbrev main_v30 : Ref sig .tc := ⟨.hbm, 40, rfl⟩
abbrev main_cst_8 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_9 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_10 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_11 : Ref sig .tc := ⟨.hbm, 59, rfl⟩
abbrev main_v46 : Ref sig .tc := ⟨.hbm, 60, rfl⟩
abbrev main_v47 : Ref sig .tc := ⟨.hbm, 61, rfl⟩
abbrev main_cst_12 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_13 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩

abbrev nD : Nat := 1
abbrev τ : Topo := Topo.v7x

variable {F : FTy → Type} [FloatOps F]

class Facts₀ : Prop where
  bcast_S_S64x32x1152x1 : S_.BroadcastsInDim S64x32x1152x1 (![] : Fin 0 → Fin S64x32x1152x1.rank)
  reducesTo_S64x32x1152x1_S64x32x1_d2 : S64x32x1152x1.ReducesTo [2] S64x32x1
  h_S_ : 0 < S_.numel
  bcast_S_S64x32x1 : S_.BroadcastsInDim S64x32x1 (![] : Fin 0 → Fin S64x32x1.rank)
  bcast_S64x32x1_S64x32x1x1_0_1_3 : S64x32x1.BroadcastsInDim S64x32x1x1 (![0, 1, 3] : Fin 3 → Fin S64x32x1x1.rank)
  bcast_S64x32x1x1_S64x32x1152x1_0_1_2_3 : S64x32x1x1.BroadcastsInDim S64x32x1152x1 (![0, 1, 2, 3] : Fin 4 → Fin S64x32x1152x1.rank)
  bcast_S64x32x1152x1_S64x32x1152x16_0_1_2_3 : S64x32x1152x1.BroadcastsInDim S64x32x1152x16 (![0, 1, 2, 3] : Fin 4 → Fin S64x32x1152x16.rank)
  reducesTo_S64x32x1152x16_S64x32x16_d2 : S64x32x1152x16.ReducesTo [2] S64x32x16
  bcast_S64x32x16_S64x32x1x16_0_1_3 : S64x32x16.BroadcastsInDim S64x32x1x16 (![0, 1, 3] : Fin 3 → Fin S64x32x1x16.rank)
  reducesTo_S64x32x1x16_S64x32x1_d3 : S64x32x1x16.ReducesTo [3] S64x32x1
  bcast_S64x32x1_S64x32x1x1_0_1_2 : S64x32x1.BroadcastsInDim S64x32x1x1 (![0, 1, 2] : Fin 3 → Fin S64x32x1x1.rank)
  bcast_S_S64x32x1x1 : S_.BroadcastsInDim S64x32x1x1 (![] : Fin 0 → Fin S64x32x1x1.rank)
  bcast_S64x32x1x1_S64x32x1x16_0_1_2_3 : S64x32x1x1.BroadcastsInDim S64x32x1x16 (![0, 1, 2, 3] : Fin 4 → Fin S64x32x1x16.rank)
  dot_S64x32x1152x16_S64x32x1x16_S64x32x1152x1_3_3_2_2_01_01_wf : DotDims.WF S64x32x1152x16 S64x32x1x16 S64x32x1152x1 [3] [3] [2] [2] [0, 1] [0, 1]

variable [Facts₀]

def dot_S64x32x1152x16_S64x32x1x16_S64x32x1152x1_3_3_2_2_01_01 : DotDims S64x32x1152x16 S64x32x1x16 S64x32x1152x1 where
  lhsContracting := [3]
  rhsContracting := [3]
  lhsNonContracting := [2]
  rhsNonContracting := [2]
  lhsBatch := [0, 1]
  rhsBatch := [0, 1]
  wf := dot_S64x32x1152x16_S64x32x1x16_S64x32x1152x1_3_3_2_2_01_01_wf

class Facts : Prop extends Facts₀ where

variable [Facts]
-- ==== Proof.RoutingSpec.lean ====
/-
  Dynamic routing between capsules, for one (sample, class) pair, over the extended reals.

  A slab is a K × L array x of prediction vectors (K input capsules, L output coordinates) and a vector b of K routing
  logits.  One routing round takes the logits to coupling weights by a softmax over the K capsules — written here, as
  both programs compute it, from the unnormalised weights e_i = exp (b_i − max_k b_k) and their sum s —, forms the
  weighted sum sj_l = Σ_i (e_i / s) · x_il, squashes it by the squared norm q = Σ_l sj_l²,
      vj_l = q / (q + 1) · (sj_l / (q + ε)),
  and raises each logit by the agreement Σ_l x_il · vj_l.  The routed output is vj after the second round, the first
  round starting from zero logits.

  The four float literals (−∞, 0, 1 and ε = f32 1e-8) are kept as the values of their bit patterns: the same pattern
  stands on both sides of every equation below and is never evaluated.
-/
import Idealize.ShloMosaic.PureOps.Ideal
import Idealize.ShloMosaic.Lib.ValueIdx
import Mathlib.Algebra.BigOperators.Group.Finset.Basic

noncomputable section

namespace Cert.Routing

open Idealize.ShloMosaic

/-- The value of the pattern of −∞. -/
abbrev NINF : EReal := Ideal.ofBits .f32 0xFF800000#32
/-- The value of the pattern of 0. -/
abbrev ZERO : EReal := Ideal.ofBits .f32 0x00000000#32
/-- The value of the pattern of 1. -/
abbrev ONE : EReal := Ideal.ofBits .f32 0x3F800000#32
/-- The value of the pattern of ε. -/
abbrev EPS : EReal := Ideal.ofBits .f32 0x322BCC77#32

variable {K L : ℕ}

/-- The unnormalised softmax weights of the logits: e_i = exp (b_i − max (−∞, max_k b_k)), the running maximum folded
    from −∞. -/
def expw (b : Fin K → EReal) (i : Fin K) : EReal :=
  Ideal.exp (b i - max NINF ((Finset.univ : Finset (Fin K)).fold max NINF b))

/-- The weighted sum of the prediction vectors, the weights e_i / s. -/
def sjOf (x : Fin K → Fin L → EReal) (e : Fin K → EReal) (s : EReal) (l : Fin L) : EReal :=
  ∑ i : Fin K, Ideal.div (e i) s * x i l

/-- The squared norm of a vector. -/
def sqOf (v : Fin L → EReal) : EReal := ∑ l : Fin L, v l * v l

/-- The squash of one coordinate t of a vector of squared norm q. -/
def squash (q t : EReal) : EReal := Ideal.div q (q + ONE) * Ideal.div t (q + EPS)

/-- The output capsule of one routing round from unnormalised weights e with sum s. -/
def vjOf (x : Fin K → Fin L → EReal) (e : Fin K → EReal) (s : EReal) (l : Fin L) : EReal :=
  squash (sqOf (sjOf x e s)) (sjOf x e s l)

/-- The logits after one round: each raised by the agreement of its prediction vector with the output capsule. -/
def bNext (x : Fin K → Fin L → EReal) (b : Fin K → EReal) (v : Fin L → EReal) (i : Fin K) : EReal :=
  b i + ∑ l : Fin L, x i l * v l

/-- The output capsule of a round from logits b. -/
def roundOf (x : Fin K → Fin L → EReal) (b : Fin K → EReal) : Fin L → EReal :=
  vjOf x (expw b) (∑ k : Fin K, expw b k)

/-- Two rounds of routing from zero logits: the output capsule of the second. -/
def route (x : Fin K → Fin L → EReal) : Fin L → EReal :=
  roundOf x (bNext x (fun _ => ZERO) (roundOf x (fun _ => ZERO)))

/-- The whole result: for the 64 × 32 slabs of a [64, 32, 1152, 16] array, the [64, 32, 1, 16] array whose entry
    (n, c, 0, l) is coordinate l of two rounds of routing on slab (n, c). -/
def routed (X : (⟨4, ![64, 32, 1152, 16]⟩ : Shape).Idx → EReal) : (⟨4, ![64, 32, 1, 16]⟩ : Shape).Idx → EReal :=
  fun j => route (fun i l => X (ValueIdx.ix4 (j 0) (j 1) i l)) (j 3)

end Cert.Routing

end
-- ==== Proof.LibSlabLayout.lean ====
/-
  Reusable lemmas: an [a, b] array of rows and an [a, b, c] array of slabs read at an entry.

  A kernel that treats each of a blocks separately reduces along the middle axis of an [a, b, c] array (a sum over the b
  rows of every slab, leaving [a, c]) and along the rows of an [a, b] array (a sum or a running maximum over b, leaving
  [a]), and lays an [a, b] array along a new trailing axis ([a, b] → [a, b, 1] → [a, b, c]).  Each lemma reads one such
  operation at an entry written by its coordinates; the sums are over the extended reals.  Generic in the extents.
-/
import Idealize.ShloMosaic.Lib.Pipeline.Value
import Idealize.ShloMosaic.Lib.ValueIdx
import Idealize.ShloMosaic.PureOps.Ideal.Laws

noncomputable section

namespace Cert.SlabLayout

open Idealize.ShloMosaic Idealize.ShloMosaic.ValueIdx

variable {α : Type} {a b c : ℕ}

/-- An [a, b] array viewed [a, b, 1] reads, at (i, k, u), the operand at (i, k). -/
theorem shapeCast_ab_ab1_apply (x : (⟨2, ![a, b]⟩ : Shape).Idx → α)
    (h : (⟨2, ![a, b]⟩ : Shape).ShapeCasts ⟨3, ![a, b, 1]⟩) (i : Fin a) (k : Fin b) (u : Fin 1) :
    shapeCast ⟨3, ![a, b, 1]⟩ x h (ix3 i k u) = x (ix2 i k) :=
  shapeCast_apply x h _ _ (by
    have hu : u.val = 0 := by omega
    rw [Shape.rowMajor_val_three, Shape.rowMajor_val_two]
    show i.val * b + k.val = (i.val * b + k.val) * 1 + u.val
    rw [hu, Nat.mul_one, Nat.add_zero])

/-- An [a, b, 1] array broadcast to [a, b, c] reads, at (i, k, j), the operand at (i, k, 0). -/
theorem broadcastTo_ab1_abc_apply (x : (⟨3, ![a, b, 1]⟩ : Shape).Idx → α)
    (h : (⟨3, ![a, b, 1]⟩ : Shape).Broadcasts ⟨3, ![a, b, c]⟩) (i : Fin a) (k : Fin b) (j : Fin c) :
    broadcastTo ⟨3, ![a, b, c]⟩ x h (ix3 i k j) = x (ix3 i k (0 : Fin 1)) := by
  refine broadcastTo_apply x h (ix3 i k j) (ix3 i k (0 : Fin 1)) fun ax => ?_
  match ax with
  | ⟨0, _⟩ =>
    show i.val = if a = 1 then 0 else i.val
    split
    · have := i.isLt; omega
    · rfl
  | ⟨1, _⟩ =>
    show k.val = if b = 1 then 0 else k.val
    split
    · have := k.isLt; omega
    · rfl
  | ⟨2, _⟩ => rfl

/-- The source index of a reduction over the middle axis: the pair (i, j) with the row k inserted is (i, k, j). -/
theorem lift_mid (h : (⟨3, ![a, b, c]⟩ : Shape).Reduces [(1 : Fin 3)] ⟨2, ![a, c]⟩) (i : Fin a) (j : Fin c) (k : Fin b) :
    h.lift (ix2 i j) k = ix3 i k j := by
  funext d
  apply Fin.ext
  show h.liftVal (ix2 i j) k.val d = (ix3 i k j d).val
  unfold Shape.Reduces.liftVal
  match d with
  | ⟨0, _⟩ => rfl
  | ⟨1, _⟩ => rfl
  | ⟨2, _⟩ => rfl

/-- Over the extended reals a sum over the middle axis of an [a, b, c] array, from the zero accumulator, is at (i, j)
    the sum over the rows k of the entries (i, k, j). -/
theorem midSum_apply {φ : FTy} (src : FVec Ideal ⟨3, ![a, b, c]⟩ φ) (acc : BitVec φ.bits)
    (h : (⟨3, ![a, b, c]⟩ : Shape).Reduces [(1 : Fin 3)] ⟨2, ![a, c]⟩) (hφ : FKind.Formats φ)
    (hacc : acc = FKind.add.neutral φ hφ) (i : Fin a) (j : Fin c) :
    multiReduction .add [(1 : Fin 3)] ⟨2, ![a, c]⟩ src acc h hφ hacc (ix2 i j) = ∑ k : Fin b, src (ix3 i k j) := by
  refine (Ideal.multiReduction_add_single src acc h hφ hacc (ix2 i j)).trans ?_
  show ∑ k : Fin b, src (h.lift (ix2 i j) k) = _
  exact Finset.sum_congr rfl fun k _ => congrArg src (lift_mid h i j k)

/-- The source index of a reduction over the rows of an [a, b] array: i with the column k inserted is (i, k). -/
theorem lift_row (h : (⟨2, ![a, b]⟩ : Shape).Reduces [(1 : Fin 2)] ⟨1, ![a]⟩) (i : Fin a) (k : Fin b) :
    h.lift (ix1 i) k = ix2 i k := by
  funext d
  apply Fin.ext
  show h.liftVal (ix1 i) k.val d = (ix2 i k d).val
  unfold Shape.Reduces.liftVal
  match d with
  | ⟨0, _⟩ => rfl
  | ⟨1, _⟩ => rfl

/-- Over the extended reals a sum along the rows of an [a, b] array, from the zero accumulator, is at i the sum over k
    of the entries (i, k). -/
theorem rowSum_apply {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (i : Fin a) :
    multiReduction .add [(1 : Fin 2)] ⟨1, ![a]⟩ src acc h hφ hacc (ix1 i) = ∑ k : Fin b, src (ix2 i k) := by
  refine (Ideal.multiReduction_add_single src acc h hφ hacc (ix1 i)).trans ?_
  show ∑ k : Fin b, src (h.lift (ix1 i) k) = _
  exact Finset.sum_congr rfl fun k _ => congrArg src (lift_row h i k)

/-- Over the extended reals a running maximum along the rows of an [a, b] array is at i the fold of max, from the
    accumulator's value, over the entries (i, k). -/
theorem rowMax_apply {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.maximumf.neutral φ hφ) (i : Fin a) :
    multiReduction .maximumf [(1 : Fin 2)] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  have e : (src ∘ h.lift (ix1 i)) = fun k => src (ix2 i k) := funext fun k => congrArg src (lift_row h i k)
  show (Finset.univ : Finset (Fin b)).fold max (Ideal.ofBits φ acc) (src ∘ h.lift (ix1 i)) = _
  rw [e]
  rfl

end Cert.SlabLayout

end
-- ==== Proof.LibKeepdimsColumn.lean ====
/-
  A reusable lemma pair: a column kept as a trailing unit axis, read at an entry.

  A reduction over the last axis of an [a, b] array with the axis kept leaves a column: the [a] result is cast to
  [a, 1] and then broadcast back to [a, b'] to meet the array it came from. Read at an entry,

      cast [a] → [a, 1]        at (i, u) is the operand at i,
      broadcast [a, 1] → [a, b] at (p, c) is the operand at (p, 0):

  every entry of row p sees the row's one value. Generic in the extents and in the element type.
-/
import Idealize.ShloMosaic.Lib.Pipeline.Value
import Idealize.ShloMosaic.Lib.ValueIdx

noncomputable section

namespace Cert.KeepdimsColumn

open Idealize.ShloMosaic Idealize.ShloMosaic.ValueIdx

/-- An [a] array cast to [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.KeepdimsColumn

end
-- ==== Proof.LibPairLayout.lean ====
/-
  Reusable lemmas: the layout operations of a pairwise (outer) combination of two row blocks, read at an entry.

  A kernel that combines every row i of an [a, c] block with every row k of a [b, c] block builds the [a, b, c] array
  of pairs by inserting a unit axis ([a, c] → [a, 1, c], [b, c] → [1, b, c]) and broadcasting along it; flattens the
  pairs to the rows r = i·b + k of an [a·b, c] matrix for a matrix product and back; lays a [c] vector along every pair
  ([c] → [1, 1, c] → [a, b, c]); reads a [c, 1] column as a [c] vector; and sums over the last axis.  Each lemma reads
  one such operation at an entry written by its coordinates.  Generic in the extents and in the element type.
-/
import Idealize.ShloMosaic.Lib.Pipeline.Value
import Idealize.ShloMosaic.Lib.ValueIdx
import Idealize.ShloMosaic.PureOps.Ideal.Laws

noncomputable section

namespace Cert.PairLayout

open Idealize.ShloMosaic Idealize.ShloMosaic.ValueIdx

variable {α : Type} {a b c n : ℕ}

/-- An [a, c] array viewed [a, 1, c] reads, at (i, u, j), the operand at (i, j). -/
theorem shapeCast_ac_a1c_apply (x : (⟨2, ![a, c]⟩ : Shape).Idx → α)
    (h : (⟨2, ![a, c]⟩ : Shape).ShapeCasts ⟨3, ![a, 1, c]⟩) (i : Fin a) (u : Fin 1) (j : Fin c) :
    shapeCast ⟨3, ![a, 1, c]⟩ x h (ix3 i u j) = x (ix2 i j) :=
  shapeCast_apply x h _ _ (by
    have hu : u.val = 0 := by omega
    rw [Shape.rowMajor_val_three, Shape.rowMajor_val_two]
    show i.val * c + j.val = (i.val * 1 + u.val) * c + j.val
    rw [hu, Nat.mul_one, Nat.add_zero])

/-- An [a, 1, c] array broadcast to [a, b, c] reads, at (i, k, j), the operand at (i, 0, j). -/
theorem broadcastTo_a1c_abc_apply (x : (⟨3, ![a, 1, c]⟩ : Shape).Idx → α)
    (h : (⟨3, ![a, 1, c]⟩ : Shape).Broadcasts ⟨3, ![a, b, c]⟩) (i : Fin a) (k : Fin b) (j : Fin c) :
    broadcastTo ⟨3, ![a, b, c]⟩ x h (ix3 i k j) = x (ix3 i (0 : Fin 1) j) := by
  refine broadcastTo_apply x h (ix3 i k j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if c = 1 then 0 else j.val
    split
    · have := j.isLt; omega
    · rfl

/-- A [1, b, c] array broadcast to [a, b, c] reads, at (i, k, j), the operand at (0, k, j). -/
theorem broadcastTo_1bc_abc_apply (x : (⟨3, ![1, b, c]⟩ : Shape).Idx → α)
    (h : (⟨3, ![1, b, c]⟩ : Shape).Broadcasts ⟨3, ![a, b, c]⟩) (i : Fin a) (k : Fin b) (j : Fin c) :
    broadcastTo ⟨3, ![a, b, c]⟩ x h (ix3 i k j) = x (ix3 (0 : Fin 1) k j) := by
  refine broadcastTo_apply x h (ix3 i k j) (ix3 (0 : Fin 1) k j) fun ax => ?_
  match ax with
  | ⟨0, _⟩ => rfl
  | ⟨1, _⟩ =>
    show k.val = if b = 1 then 0 else k.val
    split
    · have := k.isLt; omega
    · rfl
  | ⟨2, _⟩ =>
    show j.val = if c = 1 then 0 else j.val
    split
    · have := j.isLt; omega
    · rfl

/-- A [1, 1, c] array broadcast to [a, b, c] reads, at (i, k, j), the operand at (0, 0, j). -/
theorem broadcastTo_11c_abc_apply (x : (⟨3, ![1, 1, c]⟩ : Shape).Idx → α)
    (h : (⟨3, ![1, 1, c]⟩ : Shape).Broadcasts ⟨3, ![a, b, c]⟩) (i : Fin a) (k : Fin b) (j : Fin c) :
    broadcastTo ⟨3, ![a, b, c]⟩ x h (ix3 i k j) = x (ix3 (0 : Fin 1) (0 : Fin 1) j) := by
  refine broadcastTo_apply x h (ix3 i k j) (ix3 (0 : Fin 1) (0 : Fin 1) j) fun ax => ?_
  match ax with
  | ⟨0, _⟩ => rfl
  | ⟨1, _⟩ => rfl
  | ⟨2, _⟩ =>
    show j.val = if c = 1 then 0 else j.val
    split
    · have := j.isLt; omega
    · rfl

/-- A [c] vector viewed [1, 1, c] reads, at (u, v, j), the operand at j. -/
theorem shapeCast_c_11c_apply (x : (⟨1, ![c]⟩ : Shape).Idx → α)
    (h : (⟨1, ![c]⟩ : Shape).ShapeCasts ⟨3, ![1, 1, c]⟩) (u v : Fin 1) (j : Fin c) :
    shapeCast ⟨3, ![1, 1, c]⟩ x h (ix3 u v j) = x (ix1 j) :=
  shapeCast_apply x h _ _ (by
    have hu : u.val = 0 := by omega
    have hv : v.val = 0 := by omega
    rw [Shape.rowMajor_val_three, Shape.rowMajor_val_one]
    show j.val = (u.val * 1 + v.val) * c + j.val
    simp only [hu, hv, Nat.zero_mul, Nat.zero_add, Nat.mul_one, Nat.add_zero])

/-- A [c, 1] column viewed as a [c] vector reads, at j, the operand at (j, 0). -/
theorem shapeCast_c1_c_apply (x : (⟨2, ![c, 1]⟩ : Shape).Idx → α)
    (h : (⟨2, ![c, 1]⟩ : Shape).ShapeCasts ⟨1, ![c]⟩) (j : Fin c) :
    shapeCast ⟨1, ![c]⟩ x h (ix1 j) = x (ix2 j (0 : Fin 1)) :=
  shapeCast_apply x h _ _ (by
    rw [Shape.rowMajor_val_two, Shape.rowMajor_val_one]
    show j.val * 1 + 0 = j.val
    rw [Nat.mul_one, Nat.add_zero])

/-- The pairs flattened: an [a, b, c] array viewed as the [n, c] matrix (n = a·b) reads, at row r = i·b + k and
    column j, the operand at (i, k, j). -/
theorem shapeCast_abc_nc_apply (x : (⟨3, ![a, b, c]⟩ : Shape).Idx → α)
    (h : (⟨3, ![a, b, c]⟩ : Shape).ShapeCasts ⟨2, ![n, c]⟩) (i : Fin a) (k : Fin b) (j : Fin c) (r : Fin n)
    (hr : r.val = i.val * b + k.val) :
    shapeCast ⟨2, ![n, c]⟩ x h (ix2 r j) = x (ix3 i k j) :=
  shapeCast_apply x h _ _ (by
    rw [Shape.rowMajor_val_three, Shape.rowMajor_val_two]
    show (i.val * b + k.val) * c + j.val = r.val * c + j.val
    rw [hr])

/-- And back: an [n, c] matrix (n = a·b) viewed [a, b, c] reads, at (i, k, j), the operand at row r = i·b + k. -/
theorem shapeCast_nc_abc_apply (x : (⟨2, ![n, c]⟩ : Shape).Idx → α)
    (h : (⟨2, ![n, c]⟩ : Shape).ShapeCasts ⟨3, ![a, b, c]⟩) (i : Fin a) (k : Fin b) (j : Fin c) (r : Fin n)
    (hr : r.val = i.val * b + k.val) :
    shapeCast ⟨3, ![a, b, c]⟩ x h (ix3 i k j) = x (ix2 r j) :=
  shapeCast_apply x h _ _ (by
    rw [Shape.rowMajor_val_three, Shape.rowMajor_val_two]
    show r.val * c + j.val = (i.val * b + k.val) * c + j.val
    rw [hr])

/-- The source index of a sum over the last axis: the pair (i, k) with the coordinate j inserted is (i, k, j). -/
theorem lift_last (h : (⟨3, ![a, b, c]⟩ : Shape).Reduces [(2 : Fin 3)] ⟨2, ![a, b]⟩) (i : Fin a) (k : Fin b) (j : Fin c) :
    h.lift (ix2 i k) j = ix3 i k j := by
  funext d
  apply Fin.ext
  show h.liftVal (ix2 i k) j.val d = (ix3 i k j d).val
  unfold Shape.Reduces.liftVal
  match d with
  | ⟨0, _⟩ => rfl
  | ⟨1, _⟩ => rfl
  | ⟨2, _⟩ => rfl

/-- Over the extended reals a sum over the last axis of an [a, b, c] array, from the zero accumulator, is at the pair
    (i, k) the sum over j of the entries (i, k, j). -/
theorem laneSum_apply {φ : FTy} (src : FVec Ideal ⟨3, ![a, b, c]⟩ φ) (acc : BitVec φ.bits)
    (h : (⟨3, ![a, b, c]⟩ : Shape).Reduces [(2 : Fin 3)] ⟨2, ![a, b]⟩) (hφ : FKind.Formats φ)
    (hacc : acc = FKind.add.neutral φ hφ) (i : Fin a) (k : Fin b) :
    multiReduction .add [(2 : Fin 3)] ⟨2, ![a, b]⟩ src acc h hφ hacc (ix2 i k) = ∑ j : Fin c, src (ix3 i k j) := by
  refine (Ideal.multiReduction_add_single src acc h hφ hacc (ix2 i k)).trans ?_
  show ∑ j : Fin c, src (h.lift (ix2 i k) j) = _
  exact Finset.sum_congr rfl fun j _ => congrArg src (lift_last h i k j)

end Cert.PairLayout

end
-- ==== Proof.KernelBlock.lean ====
/-
  What the kernel computes on one block of sixteen slabs, entry by entry, over the extended reals.

  The body holds a block x of sixteen slabs (sixteen (sample, class) pairs, each 1152 prediction vectors of 16
  coordinates) and runs two routing rounds on all of them at once.  Its arithmetic is cut here into the four steps a round
  is made of — the unnormalised softmax weights of a block of logits, their row sums, the squashed weighted sum, and the
  logits raised by the agreements — and each step is read at an entry: slab g of the block sees only slab g of x and
  row g of the logits, and computes on them the corresponding step of the routing specification.  So the block the
  body stores holds, at (g, l), coordinate l of two rounds of routing on slab g.
-/
import proofs.«148642_j16234976379165_2_alg».proof.Proof.Gen.KernelIdeal.Skeleton
import proofs.«148642_j16234976379165_2_alg».proof.Proof.RoutingSpec
import proofs.«148642_j16234976379165_2_alg».proof.Proof.LibSlabLayout
import proofs.«148642_j16234976379165_2_alg».proof.Proof.LibKeepdimsColumn
import proofs.«148642_j16234976379165_2_alg».proof.Proof.LibPairLayout

noncomputable section

namespace Cert.KernelIdeal.Block

open Cert.KernelIdeal Cert.KernelIdeal.Gen Idealize.ShloMosaic Idealize.ShloMosaic.ValueIdx Cert.Routing

/-! ## The steps of a round, as the body spells them -/

section Steps

variable {F : FTy → Type} [FloatOps F]

/-- The zero logits the first round starts from. -/
def zeroLogits : FVec F S16x1152 .f32 := broadcast S16x1152 (Scalar.ofBits .f32 0x00000000#32)

/-- The unnormalised softmax weights of a block of logits: every row less its maximum, exponentiated. -/
def kExp (b : FVec F S16x1152 .f32) : FVec F S16x1152 .f32 :=
  exp (subf b (broadcastTo S16x1152 (shapeCast S16x1 (maximumf (broadcast S16 (Scalar.ofBits .f32 0xFF800000#32))
    (multiReduction .maximumf [1] S16 b 0xFF800000#32 reduces_S16x1152_S16 (.inl rfl) rfl)) shapeCasts_S16_S16x1)
    broadcasts_S16x1_S16x1152))

/-- The row sums of a block of weights, kept as a column. -/
def kSum (e : FVec F S16x1152 .f32) : FVec F S16x1 .f32 :=
  shapeCast S16x1 (multiReduction .add [1] S16 e 0x00000000#32 reduces_S16x1152_S16 (.inl rfl) rfl) shapeCasts_S16_S16x1

/-- The weighted sums of the prediction vectors of every slab, the weights e / s. -/
def kSj (x : FVec F S16x1152x16 .f32) (e : FVec F S16x1152 .f32) (s : FVec F S16x1 .f32) : FVec F S16x16 .f32 :=
  multiReduction .add [1] S16x16 (mulf (broadcastTo S16x1152x16 (shapeCast S16x1152x1
    (divf e (broadcastTo S16x1152 s broadcasts_S16x1_S16x1152)) shapeCasts_S16x1152_S16x1152x1)
    broadcasts_S16x1152x1_S16x1152x16) x) 0x00000000#32 reduces_S16x1152x16_S16x16 (.inl rfl) rfl

/-- The squared norms of the rows of a block of vectors, kept as a column. -/
def kSq (v : FVec F S16x16 .f32) : FVec F S16x1 .f32 :=
  shapeCast S16x1 (multiReduction .add [1] S16 (mulf v v) 0x00000000#32 reduces_S16x16_S16 (.inl rfl) rfl) shapeCasts_S16_S16x1

/-- The squash of a block of vectors v whose squared norms are the column q. -/
def kSquash (q : FVec F S16x1 .f32) (v : FVec F S16x16 .f32) : FVec F S16x16 .f32 :=
  mulf (broadcastTo S16x16 (divf q (addf q (broadcast S16x1 (Scalar.ofBits .f32 0x3F800000#32)))) broadcasts_S16x1_S16x16)
    (divf v (broadcastTo S16x16 (addf q (broadcast S16x1 (Scalar.ofBits .f32 0x322BCC77#32))) broadcasts_S16x1_S16x16))

/-- The logits raised by the agreement of every prediction vector with its slab's output capsule. -/
def kNext (x : FVec F S16x1152x16 .f32) (b : FVec F S16x1152 .f32) (v : FVec F S16x16 .f32) : FVec F S16x1152 .f32 :=
  addf b (multiReduction .add [2] S16x1152 (mulf x (broadcastTo S16x1152x16 (shapeCast S16x1x16 v shapeCasts_S16x16_S16x1x16)
    broadcasts_S16x1x16_S16x1152x16)) 0x00000000#32 reduces_S16x1152x16_S16x1152 (.inl rfl) rfl)

/-- The stored payload is the squash of the weighted sums. -/
theorem pay1_eq (x : FVec F S16x1152x16 .f32) (e : FVec F S16x1152 .f32) (s : FVec F S16x1 .f32) :
    k0_pay1 x e s = kSquash (kSq (kSj x e s)) (kSj x e s) := rfl

/-- The block as loaded is the block the rounds read. -/
theorem pay2_eq (v0 : Vec F S16x1152x16 .f32) : k0_pay2 v0 = v0 := shapeCast_self _ _

/-- The second round's weights: the weights of the logits the first round leaves. -/
theorem pay3_eq (v0 : Vec F S16x1152x16 .f32) :
    k0_pay3 v0 = kExp (kNext (k0_pay2 v0) zeroLogits
      (k0_pay1 (k0_pay2 v0) (kExp zeroLogits) (kSum (kExp zeroLogits)))) := rfl

/-- Their row sums. -/
theorem pay4_eq (v0 : Vec F S16x1152x16 .f32) : k0_pay4 v0 = kSum (k0_pay3 v0) := rfl

end Steps

/-! ## Each step at an entry -/

/-- Slab g of a block of prediction vectors. -/
abbrev slab (x : FVec Ideal S16x1152x16 .f32) (g : Fin 16) : Fin 1152 → Fin 16 → EReal := fun i l => x (ix3 g i l)
/-- Row g of a [16, n] block. -/
abbrev rowOf {n : ℕ} (b : FVec Ideal ⟨2, ![16, n]⟩ .f32) (g : Fin 16) : Fin n → EReal := fun i => b (ix2 g i)

theorem kExp_apply (b : FVec Ideal S16x1152 .f32) (g : Fin 16) (i : Fin 1152) :
    kExp b (ix2 g i) = expw (rowOf b g) i := by
  unfold kExp expw
  show Ideal.exp (b (ix2 g i) - broadcastTo S16x1152 _ _ (ix2 g i)) = _
  rw [Cert.KeepdimsColumn.broadcastTo_a1_ab_apply, Cert.KeepdimsColumn.shapeCast_a_a1_apply]
  show Ideal.exp (b (ix2 g i) - max NINF (multiReduction .maximumf [1] S16 b 0xFF800000#32 _ _ _ (ix1 g))) = _
  exact congrArg (fun t => Ideal.exp (b (ix2 g i) - max NINF t)) (Cert.SlabLayout.rowMax_apply b _ _ _ _ g)

theorem kSum_apply (e : FVec Ideal S16x1152 .f32) (g : Fin 16) (u : Fin 1) :
    kSum e (ix2 g u) = ∑ k : Fin 1152, e (ix2 g k) := by
  unfold kSum
  rw [Cert.KeepdimsColumn.shapeCast_a_a1_apply]
  exact Cert.SlabLayout.rowSum_apply e _ _ _ _ g

theorem kSj_apply (x : FVec Ideal S16x1152x16 .f32) (e : FVec Ideal S16x1152 .f32) (s : FVec Ideal S16x1 .f32)
    (g : Fin 16) (l : Fin 16) :
    kSj x e s (ix2 g l) = sjOf (slab x g) (rowOf e g) (s (ix2 g (0 : Fin 1))) l := by
  unfold kSj sjOf
  refine (Cert.SlabLayout.midSum_apply _ _ _ _ _ g l).trans ?_
  refine Finset.sum_congr rfl fun k _ => ?_
  show broadcastTo S16x1152x16 _ _ (ix3 g k l) * x (ix3 g k l) = _
  rw [Cert.SlabLayout.broadcastTo_ab1_abc_apply, Cert.SlabLayout.shapeCast_ab_ab1_apply]
  show Ideal.div (e (ix2 g k)) (broadcastTo S16x1152 s _ (ix2 g k)) * x (ix3 g k l) = _
  rw [Cert.KeepdimsColumn.broadcastTo_a1_ab_apply]

theorem kSq_apply (v : FVec Ideal S16x16 .f32) (g : Fin 16) (u : Fin 1) :
    kSq v (ix2 g u) = sqOf (rowOf v g) := by
  unfold kSq sqOf
  rw [Cert.KeepdimsColumn.shapeCast_a_a1_apply]
  exact Cert.SlabLayout.rowSum_apply (mulf v v) _ _ _ _ g

theorem kSquash_apply (q : FVec Ideal S16x1 .f32) (v : FVec Ideal S16x16 .f32) (g : Fin 16) (l : Fin 16) :
    kSquash q v (ix2 g l) = squash (q (ix2 g (0 : Fin 1))) (v (ix2 g l)) := by
  unfold kSquash squash
  show broadcastTo S16x16 _ _ (ix2 g l) * Ideal.div (v (ix2 g l)) (broadcastTo S16x16 _ _ (ix2 g l)) = _
  rw [Cert.KeepdimsColumn.broadcastTo_a1_ab_apply, Cert.KeepdimsColumn.broadcastTo_a1_ab_apply]
  rfl

theorem kNext_apply (x : FVec Ideal S16x1152x16 .f32) (b : FVec Ideal S16x1152 .f32) (v : FVec Ideal S16x16 .f32)
    (g : Fin 16) (i : Fin 1152) :
    kNext x b v (ix2 g i) = bNext (slab x g) (rowOf b g) (rowOf v g) i := by
  unfold kNext bNext
  show b (ix2 g i) + multiReduction .add [2] S16x1152 _ 0x00000000#32 _ _ _ (ix2 g i) = _
  refine congrArg (b (ix2 g i) + ·) ((Cert.PairLayout.laneSum_apply _ _ _ _ _ g i).trans (Finset.sum_congr rfl fun l _ => ?_))
  show x (ix3 g i l) * broadcastTo S16x1152x16 _ _ (ix3 g i l) = _
  rw [Cert.PairLayout.broadcastTo_a1c_abc_apply, Cert.PairLayout.shapeCast_ac_a1c_apply]

/-- One round on a block: slab g gets one round of the specification on its own data. -/
theorem round_apply (x : FVec Ideal S16x1152x16 .f32) (b : FVec Ideal S16x1152 .f32) (g : Fin 16) (l : Fin 16) :
    k0_pay1 (F := Ideal) x (kExp b) (kSum (kExp b)) (ix2 g l) = roundOf (slab x g) (rowOf b g) l := by
  rw [pay1_eq, kSquash_apply, kSq_apply]
  unfold roundOf vjOf
  have hsj : ∀ l', kSj x (kExp b) (kSum (kExp b)) (ix2 g l') = sjOf (slab x g) (expw (rowOf b g)) (∑ k : Fin 1152, expw (rowOf b g) k) l' := by
    intro l'
    rw [kSj_apply, kSum_apply]
    have he : rowOf (kExp b) g = expw (rowOf b g) := funext fun k => kExp_apply b g k
    rw [he]
    exact congrArg (fun s => sjOf (slab x g) (expw (rowOf b g)) s l') (Finset.sum_congr rfl fun k _ => kExp_apply b g k)
  have hrow : rowOf (kSj x (kExp b) (kSum (kExp b))) g = sjOf (slab x g) (expw (rowOf b g)) (∑ k : Fin 1152, expw (rowOf b g) k) :=
    funext hsj
  rw [hrow, hsj l]

/-- THE BLOCK: what the body stores for a loaded block x is, at (g, l), coordinate l of two rounds of routing on slab g. -/
theorem block_apply (x : FVec Ideal S16x1152x16 .f32) (g : Fin 16) (l : Fin 16) :
    k0_pay1 (F := Ideal) (k0_pay2 x) (k0_pay3 x) (k0_pay4 x) (ix2 g l) = route (slab x g) l := by
  rw [pay4_eq, pay3_eq, pay2_eq, round_apply]
  unfold route
  have hb : rowOf (kNext x zeroLogits (k0_pay1 x (kExp zeroLogits) (kSum (kExp zeroLogits)))) g
      = bNext (slab x g) (fun _ => ZERO) (roundOf (slab x g) (fun _ => ZERO)) := by
    funext i
    show kNext x zeroLogits _ (ix2 g i) = _
    rw [kNext_apply]
    have hv : rowOf (k0_pay1 x (kExp zeroLogits) (kSum (kExp zeroLogits))) g = roundOf (slab x g) (rowOf zeroLogits g) :=
      funext fun l' => round_apply x zeroLogits g l'
    rw [hv]
    rfl
  rw [hb]

/-- The same at any entry of the block. -/
theorem block_at (x : FVec Ideal S16x1152x16 .f32) (y : S16x16.Idx) :
    k0_pay1 (F := Ideal) (k0_pay2 x) (k0_pay3 x) (k0_pay4 x) y = route (slab x (y 0)) (y 1) := by
  obtain ⟨g, l, rfl⟩ : ∃ (g : Fin 16) (l : Fin 16), y = ix2 g l := ⟨y 0, y 1, eq_ix2 y⟩
  exact block_apply x g l

end Cert.KernelIdeal.Block

end
-- ==== Proof.KernelValue.lean ====
/-
  The kernel's result array after the run, over the extended reals.

  The launch walks 128 grid points; point t stages rows 16t … 16t + 15 of the argument viewed as 2048 slabs, and writes
  back rows 16t … 16t + 15 of a [2048, 16] array.  What a point writes back is a block of ONE whole-array function
  (row r is two rounds of routing on slab r), the 128 blocks tile the array, so the array ends holding that function;
  the reshapes before and after the launch rename slab n·32 + c as (n, c).
-/
import proofs.«148642_j16234976379165_2_alg».proof.Proof.Gen.KernelIdeal.Frame
import proofs.«148642_j16234976379165_2_alg».proof.Proof.KernelBlock
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Routed

open Cert.KernelIdeal Cert.KernelIdeal.Gen Idealize.ShloMosaic.ValueIdx Cert.Routing

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The one store covers the output block from offset zero, the one load reads the whole input block: the output
    block after the body is the stored payload of the input block. -/
theorem out_eq (x0 : Vec Ideal S16x1152x16 .f32) :
    out0_1 x0 = k0_pay1 (F := Ideal) (k0_pay2 x0) (k0_pay3 x0) (k0_pay4 x0) := by
  unfold out0_1
  rw [View.canon_unit_zero hz2]
  simp only [View.ld_unit_zero (S := S16x1152x16) hz3]

/-- The flat result: row r of the [2048, 16] array is two rounds of routing on slab r of the flat argument. -/
def flatRoute (A : S2048x1152x16.Idx → EReal) : S2048x16.Idx → EReal :=
  fun j => route (fun i l => A (ix3 (j 0) i l)) (j 1)

/-- The index maps over the grid: point t stages block (t, 0, 0) of the argument and writes back block (t, 0). -/
theorem idx_facts : ∀ t : Fin cfg0.N, win0_0.index t (0 : Fin 3) = t.val ∧ win0_0.index t (1 : Fin 3) = 0
    ∧ win0_0.index t (2 : Fin 3) = 0 ∧ win0_1.index t (0 : Fin 2) = t.val ∧ win0_1.index t (1 : Fin 2) = 0 :=
  (by decide +kernel : ∀ t : Fin grid0.N, _)

/-- What point t writes back is block t of the flat result of the argument as the launch finds it. -/
theorem flushed_eq (c : Dev nD) (t : Fin cfg0.N) :
    (dats m 0 c).flushed 1 t = ((cfg0.win 1).blk t).view.read (Elt Ideal) (flatRoute (V m c main_v0)) := by
  show (cfg0.win 1).cut (grid0.coords t) ((dats m 0 c).after 1 t) = _
  rw [after0_1, out_eq]
  obtain ⟨e0, e1, e2, e3, e4⟩ := idx_facts t
  funext y
  show k0_pay1 (F := Ideal) (k0_pay2 (iblk m c 0 t)) (k0_pay3 (iblk m c 0 t)) (k0_pay4 (iblk m c 0 t)) y
    = flatRoute (V m c main_v0) (((cfg0.win 1).blk t).view.emb y)
  refine (Cert.KernelIdeal.Block.block_at (iblk m c 0 t) y).trans ?_
  unfold flatRoute
  have hl : (((cfg0.win 1).blk t).view.emb y) 1 = y 1 := Fin.ext (by
    show win0_1.index t (1 : Fin 2) * 16 + 1 * (y 1).val = (y 1).val
    rw [e4]; omega)
  have hx : Cert.KernelIdeal.Block.slab (iblk m c 0 t) (y 0)
      = fun i l => V m c main_v0 (ix3 ((((cfg0.win 1).blk t).view.emb y) 0) i l) := by
    funext i l
    show iblk m c 0 t (ix3 (y 0) i l) = _
    unfold iblk
    rw [View.read_apply]
    show V m c main_v0 _ = V m c main_v0 _
    congr 1
    funext a
    apply Fin.ext
    match a with
    | ⟨0, _⟩ =>
      show win0_0.index t (0 : Fin 3) * 16 + 1 * (y 0).val = win0_1.index t (0 : Fin 2) * 16 + 1 * (y 0).val
      rw [e0, e3]
    | ⟨1, _⟩ =>
      show win0_0.index t (1 : Fin 3) * 1152 + 1 * i.val = i.val
      rw [e1]; omega
    | ⟨2, _⟩ =>
      show win0_0.index t (2 : Fin 3) * 16 + 1 * l.val = l.val
      rw [e2]; omega
  rw [hx, hl]

/-- An index of the [2048, 16] array is in point t's block iff each coordinate is in the block's range. -/
theorem mem_blk (t : Fin cfg0.N) (i : S2048x16.Idx) :
    i ∈ ((cfg0.win 1).blk t).view.set ↔ ∀ a : Fin 2, win0_1.index t a * S16x16.size a ≤ (i a).val
      ∧ (i a).val < win0_1.index t a * S16x16.size a + S16x16.size a := by
  show i ∈ ((View.whole main_v1).slice (win0_1.rect t)).set ↔ _
  rw [View.set_slice_whole, Rect.mem_set_unit]
  exact Iff.rfl

/-- The blocks tile the array: row r is in the block of point r / 16. -/
theorem cover (i : S2048x16.Idx) :
    ∃ t : Fin cfg0.N, (cfg0.win 1).flush t = true ∧ i ∈ ((cfg0.win 1).blk t).view.set := by
  have hi0 : (i 0).val < 2048 := (i 0).isLt
  have hi1 : (i 1).val < 16 := (i 1).isLt
  have hN : cfg0.N = 128 := N_0
  have ht : (i 0).val / 16 < cfg0.N := by rw [hN]; omega
  obtain ⟨-, -, -, e3, e4⟩ := idx_facts ⟨(i 0).val / 16, ht⟩
  refine ⟨⟨(i 0).val / 16, ht⟩, flush0_1 _, ?_⟩
  rw [mem_blk]
  intro a
  match a with
  | ⟨0, _⟩ =>
    show win0_1.index ⟨(i 0).val / 16, ht⟩ (0 : Fin 2) * 16 ≤ (i 0).val
      ∧ (i 0).val < win0_1.index ⟨(i 0).val / 16, ht⟩ (0 : Fin 2) * 16 + 16
    rw [e3]
    show (i 0).val / 16 * 16 ≤ (i 0).val ∧ (i 0).val < (i 0).val / 16 * 16 + 16
    omega
  | ⟨1, _⟩ =>
    show win0_1.index ⟨(i 0).val / 16, ht⟩ (1 : Fin 2) * 16 ≤ (i 1).val
      ∧ (i 1).val < win0_1.index ⟨(i 0).val / 16, ht⟩ (1 : Fin 2) * 16 + 16
    rw [e4]
    omega

/-- So the [2048, 16] array ends holding the flat result. -/
theorem final1 (c : Dev nD) : (dats m 0 c).arrAt 1 cfg0.N = flatRoute (V m c main_v0) :=
  (dats m 0 c).arrAt_eq_of_cover 1 (flatRoute (V m c main_v0)) (fun t _ => flushed_eq m c t) cover

/-- The launch finds, as its operand, the argument viewed as 2048 slabs. -/
theorem V_main_v0 (c : Dev nD) :
    (V m c main_v0 : S2048x1152x16.Idx → EReal)
      = shapeCast S2048x1152x16 (m ((c : Thread nD τ).loc main_arg0)) shapeCasts_S64x32x1152x16_S2048x1152x16 := by
  show StableHlo.after hostOps0 (fun b => m (c, b)) (Proc.devRef .tc main_v0) = _
  after_results
  rfl

/-- The program's result: the [2048, 16] array viewed [64, 32, 1, 16]. -/
theorem tail_eq (c : Dev nD) :
    (Pipeline.afterTail₀ cfgs (dats m) 0 (V0 m) [hostOps1] c main_v2 : S64x32x1x16.Idx → EReal)
      = shapeCast S64x32x1x16 (flatRoute (V m c main_v0)) shapeCasts_S2048x16_S64x32x1x16 := by
  unfold Pipeline.afterTail₀
  show StableHlo.after hostOps1 _ (Proc.devRef .tc main_v2) = _
  after_results
  rw [(Pipeline.withArrays_arr spec0 launch0.win.arr_inj c _ _ 1).trans (final1 m c)]
  rfl

/-- Renaming the slabs: the flat result of the flat argument, viewed [64, 32, 1, 16], is the routed array. -/
theorem renamed (X : S64x32x1152x16.Idx → EReal) :
    shapeCast S64x32x1x16 (flatRoute (shapeCast S2048x1152x16 X shapeCasts_S64x32x1152x16_S2048x1152x16))
      shapeCasts_S2048x16_S64x32x1x16 = routed X := by
  funext j
  obtain ⟨n, c, u, l, rfl⟩ : ∃ (n : Fin 64) (c : Fin 32) (u : Fin 1) (l : Fin 16), j = ix4 n c u l :=
    ⟨j 0, j 1, j 2, j 3, eq_ix4 j⟩
  have hn : n.val < 64 := n.isLt
  have hc : c.val < 32 := c.isLt
  have hu : u.val = 0 := by omega
  have hr : n.val * 32 + c.val < 2048 := by omega
  rw [shapeCast_apply _ shapeCasts_S2048x16_S64x32x1x16 (ix4 n c u l) (ix2 (⟨n.val * 32 + c.val, hr⟩ : Fin 2048) l) (by
    rw [Shape.rowMajor_val_two, Shape.rowMajor_val_four]
    show (n.val * 32 + c.val) * 16 + l.val = ((n.val * 32 + c.val) * 1 + u.val) * 16 + l.val
    rw [hu]; omega)]
  unfold flatRoute routed
  refine congrArg (fun x => route x l) (funext fun i => funext fun l' => ?_)
  exact shapeCast_apply X shapeCasts_S64x32x1152x16_S2048x1152x16 (ix3 (⟨n.val * 32 + c.val, hr⟩ : Fin 2048) i l') (ix4 n c i l') (by
    rw [Shape.rowMajor_val_four, Shape.rowMajor_val_three]
    show ((n.val * 32 + c.val) * 1152 + i.val) * 16 + l'.val = ((n.val * 32 + c.val) * 1152 + i.val) * 16 + l'.val
    rfl)

/-- THE RUN, READ: every weakly fair execution of the idealized kernel's program ends with the result at the routed
    array of the argument, the argument unchanged. -/
theorem run : θ_run defs (onTc (τ := τ) (main (F := Ideal))) ⟨m, fun _ => 0, ρ⟩ fun r => ∀ c : Dev nD,
      r.2.mem ((c.tc : Thread nD τ).loc main_v2) = routed (m ((c.tc : Thread nD τ).loc main_arg0))
      ∧ r.2.mem ((c.tc : Thread nD τ).loc main_arg0) = m ((c.tc : Thread nD τ).loc main_arg0) :=
  (θ_run defs _ _).mono (fun r h c =>
      ⟨((h c).2 main_v2 (Pipeline.mem_restRefs_of main_v2 (by decide) (by decide))).trans
          ((tail_eq m c).trans (by rw [V_main_v0]; exact renamed _)),
        ((h c).2 main_arg0 (Pipeline.mem_restRefs_of main_arg0 (by decide) (by decide))).trans (W_main_arg0 m (dats m) c)⟩)
    (run_main m ρ)

end Cert.KernelIdeal.Routed

end
-- ==== Proof.HostSteps.lean ====
/-
  The reference's run as two routing rounds.

  The jnp reference keeps all 64 × 32 slabs in one four-axis array and every reduced axis as a unit axis.  Its run is
  cut here into the steps a routing round is made of — the unnormalised softmax weights of the logits, the weighted sum
  of the prediction vectors, its squared norm, the squash, and the logits raised by the agreements (a batched product
  contracting the coordinate axis) —, and the result of the run is two rounds of these steps from zero logits.
-/
import proofs.«148642_j16234976379165_2_alg».proof.Proof.Gen.ReferenceIdeal.Run

noncomputable section

namespace Cert.ReferenceIdeal.Round

open Cert.ReferenceIdeal Cert.ReferenceIdeal.Gen Cert.ReferenceIdeal.Value Idealize.ShloMosaic Idealize.ShloMosaic.TcCoe
open Idealize.SL.Sem Idealize.ShloMosaic.StableHlo

/-! ## The steps of a round, as the reference spells them -/

section Steps

variable {F : FTy → Type} [FloatOps F]

/-- The zero logits the first round starts from. -/
def zeroLogits : FVec F S64x32x1152x1 .f32 :=
  broadcastInDim S64x32x1152x1 ![] bcast_S_S64x32x1152x1 (constant S_ .f32 0x00000000#32)

/-- The unnormalised softmax weights of the logits: every slab's column less its maximum, exponentiated. -/
def hExp (b : FVec F S64x32x1152x1 .f32) : FVec F S64x32x1152x1 .f32 :=
  Host.exp (subf b (broadcastInDim S64x32x1152x1 ![0, 1, 2, 3] bcast_S64x32x1x1_S64x32x1152x1_0_1_2_3 (broadcastInDim S64x32x1x1 ![0, 1, 3] bcast_S64x32x1_S64x32x1x1_0_1_3 (maximumf (broadcastInDim S64x32x1 ![] bcast_S_S64x32x1 (constant S_ .f32 0xFF800000#32)) (Host.reduce FloatOps.maximumf b (constant S_ .f32 0xFF800000#32) reducesTo_S64x32x1152x1_S64x32x1_d2 h_S_)))))

/-- The weighted sums of the prediction vectors of every slab, the weights e over their sum. -/
def hSj (e : FVec F S64x32x1152x1 .f32) (X : FVec F S64x32x1152x16 .f32) : FVec F S64x32x1x16 .f32 :=
  broadcastInDim S64x32x1x16 ![0, 1, 3] bcast_S64x32x16_S64x32x1x16_0_1_3 (Host.reduceAdd (mulf (broadcastInDim S64x32x1152x16 ![0, 1, 2, 3] bcast_S64x32x1152x1_S64x32x1152x16_0_1_2_3 (Host.divf e (broadcastInDim S64x32x1152x1 ![0, 1, 2, 3] bcast_S64x32x1x1_S64x32x1152x1_0_1_2_3 (broadcastInDim S64x32x1x1 ![0, 1, 3] bcast_S64x32x1_S64x32x1x1_0_1_3 (Host.reduceAdd e (constant S_ .f32 0x00000000#32) reducesTo_S64x32x1152x1_S64x32x1_d2 h_S_))))) X) (constant S_ .f32 0x00000000#32) reducesTo_S64x32x1152x16_S64x32x16_d2 h_S_)

/-- The squared norm of every slab's vector. -/
def hSq (v : FVec F S64x32x1x16 .f32) : FVec F S64x32x1x1 .f32 :=
  broadcastInDim S64x32x1x1 ![0, 1, 2] bcast_S64x32x1_S64x32x1x1_0_1_2 (Host.reduceAdd (mulf v v) (constant S_ .f32 0x00000000#32) reducesTo_S64x32x1x16_S64x32x1_d3 h_S_)

/-- The squash of every slab's vector v, the squared norms q. -/
def hSquash (q : FVec F S64x32x1x1 .f32) (v : FVec F S64x32x1x16 .f32) : FVec F S64x32x1x16 .f32 :=
  mulf (broadcastInDim S64x32x1x16 ![0, 1, 2, 3] bcast_S64x32x1x1_S64x32x1x16_0_1_2_3 (Host.divf q (addf q (broadcastInDim S64x32x1x1 ![] bcast_S_S64x32x1x1 (constant S_ .f32 0x3F800000#32))))) (Host.divf v (broadcastInDim S64x32x1x16 ![0, 1, 2, 3] bcast_S64x32x1x1_S64x32x1x16_0_1_2_3 (addf q (broadcastInDim S64x32x1x1 ![] bcast_S_S64x32x1x1 (constant S_ .f32 0x322BCC77#32)))))

/-- The logits raised by the agreement of every prediction vector with its slab's output capsule. -/
def hNext (b : FVec F S64x32x1152x1 .f32) (X : FVec F S64x32x1152x16 .f32) (v : FVec F S64x32x1x16 .f32) : FVec F S64x32x1152x1 .f32 :=
  addf b (Host.dotGeneral dot_S64x32x1152x16_S64x32x1x16_S64x32x1152x1_3_3_2_2_01_01 none X v)

/-- One round: the output capsules from the logits. -/
def hRound (b : FVec F S64x32x1152x1 .f32) (X : FVec F S64x32x1152x16 .f32) : FVec F S64x32x1x16 .f32 :=
  hSquash (hSq (hSj (hExp b) X)) (hSj (hExp b) X)

/-- Two rounds from zero logits. -/
def hRoute (X : FVec F S64x32x1152x16 .f32) : FVec F S64x32x1x16 .f32 :=
  hRound (hNext zeroLogits X (hRound zeroLogits X)) X

/-! ### The run's named terms are these steps, one after another -/

variable (V0 : Valuation τ sig (Elt F))

theorem v0_eq : res_main_v0 V0 = zeroLogits := rfl
theorem v7_eq : res_main_v7 V0 = hExp (res_main_v0 V0) := rfl
theorem v15_eq : res_main_v15 V0 = hSj (res_main_v7 V0) (V0 (Proc.devRef .tc main_arg0)) := rfl
theorem v18_eq : res_main_v18 V0 = hSq (res_main_v15 V0) := rfl
theorem v29_eq : res_main_v29 V0
    = hNext (res_main_v0 V0) (V0 (Proc.devRef .tc main_arg0)) (hSquash (res_main_v18 V0) (res_main_v15 V0)) := rfl
theorem v36_eq : res_main_v36 V0 = hExp (res_main_v29 V0) := rfl
theorem v44_eq : res_main_v44 V0 = hSj (res_main_v36 V0) (V0 (Proc.devRef .tc main_arg0)) := rfl
theorem v47_eq : res_main_v47 V0 = hSq (res_main_v44 V0) := rfl

/-- The run's term for the result is two rounds on the argument. -/
theorem result_eq :
    mulf (broadcastInDim S64x32x1x16 ![0, 1, 2, 3] bcast_S64x32x1x1_S64x32x1x16_0_1_2_3 (Host.divf (res_main_v47 V0) (addf (res_main_v47 V0) (broadcastInDim S64x32x1x1 ![] bcast_S_S64x32x1x1 (constant S_ .f32 0x3F800000#32))))) (Host.divf (res_main_v44 V0) (broadcastInDim S64x32x1x16 ![0, 1, 2, 3] bcast_S64x32x1x1_S64x32x1x16_0_1_2_3 (addf (res_main_v47 V0) (broadcastInDim S64x32x1x1 ![] bcast_S_S64x32x1x1 (constant S_ .f32 0x322BCC77#32)))))
      = hRoute (V0 (Proc.devRef .tc main_arg0)) := by
  show hSquash (res_main_v47 V0) (res_main_v44 V0) = _
  rw [v47_eq, v44_eq, v36_eq, v29_eq, v18_eq, v15_eq, v7_eq, v0_eq]
  rfl

end Steps

end Cert.ReferenceIdeal.Round

end
-- ==== Proof.LibHostSlabs.lean ====
/-
  Reusable lemmas: host operations on an [a, b, c, d] array of a·b slabs (c rows of d coordinates each), read at an
  entry.

  A jnp program that treats every slab (n, k) of a four-axis array separately, keeping reduced axes as unit axes,
  prints sums and running maxima over the row axis (axis 2, leaving [a, b, d]) and over the coordinate axis (axis 3,
  leaving [a, b, c]), and broadcast_in_dims that put a reduced axis back: [a, b, 1] → [a, b, p, q] (a per-slab scalar),
  [a, b, 1, 1] → [a, b, c, d], [a, b, c, 1] → [a, b, c, d] (a per-row scalar along the coordinates) and
  [a, b, d] → [a, b, 1, d].  Each lemma reads one such operation at an entry written by its coordinates; sums and maxima
  are over the extended reals.  Generic in the extents.
-/
import Idealize.ShloMosaic.Lib.Pipeline.Value
import Idealize.ShloMosaic.Lib.ValueIdx
import Idealize.ShloMosaic.Lib.IdealHost
import Idealize.ShloMosaic.PureOps.Ideal.Laws

noncomputable section

namespace Cert.HostSlabs

open Idealize.ShloMosaic Idealize.ShloMosaic.ValueIdx

variable {α : Type} {a b c d p q : ℕ}

/-! ## Broadcasts that put reduced axes back -/

/-- A per-slab scalar [a, b, 1] broadcast to [a, b, p, q] along any placement of its unit axis reads, at (n, k, u, v),
    the operand at (n, k, 0). -/
theorem bcast_ab1_abpq_apply (dims : Fin 3 → Fin 4) (hd0 : dims 0 = 0) (hd1 : dims 1 = 1)
    (h : (⟨3, ![a, b, 1]⟩ : Shape).BroadcastsInDim ⟨4, ![a, b, p, q]⟩ dims)
    (x : (⟨3, ![a, b, 1]⟩ : Shape).Idx → α) (n : Fin a) (k : Fin b) (u : Fin p) (v : Fin q) :
    broadcastInDim ⟨4, ![a, b, p, q]⟩ dims h x (ix4 n k u v) = x (ix3 n k (0 : Fin 1)) := by
  refine broadcastInDim_apply dims h x (ix4 n k u v) (ix3 n k (0 : Fin 1)) fun ax => ?_
  match ax with
  | ⟨0, _⟩ =>
    show n.val = if a = 1 then 0 else (ix4 n k u v (dims 0)).val
    rw [hd0]
    split
    · have := n.isLt; omega
    · rfl
  | ⟨1, _⟩ =>
    show k.val = if b = 1 then 0 else (ix4 n k u v (dims 1)).val
    rw [hd1]
    split
    · have := k.isLt; omega
    · rfl
  | ⟨2, _⟩ => rfl

/-- A per-slab scalar kept as [a, b, 1, 1] broadcast to [a, b, c, d] reads, at (n, k, i, l), the operand at
    (n, k, 0, 0). -/
theorem bcast_ab11_abcd_apply (h : (⟨4, ![a, b, 1, 1]⟩ : Shape).BroadcastsInDim ⟨4, ![a, b, c, d]⟩ ![0, 1, 2, 3])
    (x : (⟨4, ![a, b, 1, 1]⟩ : Shape).Idx → α) (n : Fin a) (k : Fin b) (i : Fin c) (l : Fin d) :
    broadcastInDim ⟨4, ![a, b, c, d]⟩ ![0, 1, 2, 3] h x (ix4 n k i l) = x (ix4 n k (0 : Fin 1) (0 : Fin 1)) := by
  refine broadcastInDim_apply _ h x (ix4 n k i l) (ix4 n k (0 : Fin 1) (0 : Fin 1)) fun ax => ?_
  match ax with
  | ⟨0, _⟩ =>
    show n.val = if a = 1 then 0 else n.val
    split
    · have := n.isLt; omega
    · rfl
  | ⟨1, _⟩ =>
    show k.val = if b = 1 then 0 else k.val
    split
    · have := k.isLt; omega
    · rfl
  | ⟨2, _⟩ => rfl
  | ⟨3, _⟩ => rfl

/-- A per-row scalar [a, b, c, 1] broadcast along the coordinates to [a, b, c, d] reads, at (n, k, i, l), the operand at
    (n, k, i, 0). -/
theorem bcast_abc1_abcd_apply (h : (⟨4, ![a, b, c, 1]⟩ : Shape).BroadcastsInDim ⟨4, ![a, b, c, d]⟩ ![0, 1, 2, 3])
    (x : (⟨4, ![a, b, c, 1]⟩ : Shape).Idx → α) (n : Fin a) (k : Fin b) (i : Fin c) (l : Fin d) :
    broadcastInDim ⟨4, ![a, b, c, d]⟩ ![0, 1, 2, 3] h x (ix4 n k i l) = x (ix4 n k i (0 : Fin 1)) := by
  refine broadcastInDim_apply _ h x (ix4 n k i l) (ix4 n k i (0 : Fin 1)) fun ax => ?_
  match ax with
  | ⟨0, _⟩ =>
    show n.val = if a = 1 then 0 else n.val
    split
    · have := n.isLt; omega
    · rfl
  | ⟨1, _⟩ =>
    show k.val = if b = 1 then 0 else k.val
    split
    · have := k.isLt; omega
    · rfl
  | ⟨2, _⟩ =>
    show i.val = if c = 1 then 0 else i.val
    split
    · have := i.isLt; omega
    · rfl
  | ⟨3, _⟩ => rfl

/-- A per-slab vector [a, b, d] given its unit row axis back, [a, b, 1, d], reads, at (n, k, u, l), the operand at
    (n, k, l). -/
theorem bcast_abd_ab1d_apply (h : (⟨3, ![a, b, d]⟩ : Shape).BroadcastsInDim ⟨4, ![a, b, 1, d]⟩ ![0, 1, 3])
    (x : (⟨3, ![a, b, d]⟩ : Shape).Idx → α) (n : Fin a) (k : Fin b) (u : Fin 1) (l : Fin d) :
    broadcastInDim ⟨4, ![a, b, 1, d]⟩ ![0, 1, 3] h x (ix4 n k u l) = x (ix3 n k l) := by
  refine broadcastInDim_apply _ h x (ix4 n k u l) (ix3 n k l) fun ax => ?_
  match ax with
  | ⟨0, _⟩ =>
    show n.val = if a = 1 then 0 else n.val
    split
    · have := n.isLt; omega
    · rfl
  | ⟨1, _⟩ =>
    show k.val = if b = 1 then 0 else k.val
    split
    · have := k.isLt; omega
    · rfl
  | ⟨2, _⟩ =>
    show l.val = if d = 1 then 0 else l.val
    split
    · have := l.isLt; omega
    · rfl

/-! ## Reductions over the row axis and over the coordinate axis -/

/-- The source index of a reduction over the row axis: (n, k, l) with the row i inserted is (n, k, i, l). -/
theorem lift_rows (h : (⟨4, ![a, b, c, d]⟩ : Shape).Reduces [(2 : Fin 4)] ⟨3, ![a, b, d]⟩) (n : Fin a) (k : Fin b) (l : Fin d)
    (i : Fin c) : h.lift (ix3 n k l) i = ix4 n k i l := by
  funext e
  apply Fin.ext
  show h.liftVal (ix3 n k l) i.val e = (ix4 n k i l e).val
  unfold Shape.Reduces.liftVal
  match e with
  | ⟨0, _⟩ => rfl
  | ⟨1, _⟩ => rfl
  | ⟨2, _⟩ => rfl
  | ⟨3, _⟩ => rfl

/-- The source index of a reduction over the coordinate axis: (n, k, i) with the coordinate l inserted is (n, k, i, l). -/
theorem lift_coords (h : (⟨4, ![a, b, c, d]⟩ : Shape).Reduces [(3 : Fin 4)] ⟨3, ![a, b, c]⟩) (n : Fin a) (k : Fin b) (i : Fin c)
    (l : Fin d) : h.lift (ix3 n k i) l = ix4 n k i l := by
  funext e
  apply Fin.ext
  show h.liftVal (ix3 n k i) l.val e = (ix4 n k i l e).val
  unfold Shape.Reduces.liftVal
  match e with
  | ⟨0, _⟩ => rfl
  | ⟨1, _⟩ => rfl
  | ⟨2, _⟩ => rfl
  | ⟨3, _⟩ => rfl

/-- The host's sum over the rows of every slab: at (n, k, l) the initial value plus the sum over i of the entries
    (n, k, i, l). -/
theorem hostSumRows_apply {φ : FTy} {u : Shape} (x : FVec Ideal ⟨4, ![a, b, c, d]⟩ φ) (init : u.Idx → Ideal φ)
    (h' : (⟨4, ![a, b, c, d]⟩ : Shape).ReducesTo [(2 : Fin 4)] ⟨3, ![a, b, d]⟩)
    (h : (⟨4, ![a, b, c, d]⟩ : Shape).Reduces [(2 : Fin 4)] ⟨3, ![a, b, d]⟩) (hu : 0 < u.numel)
    (n : Fin a) (k : Fin b) (l : Fin d) :
    Host.reduceAdd x init h' hu (ix3 n k l) = init (Shape.Idx.first hu) + ∑ i : Fin c, x (ix4 n k i l) := by
  refine (Ideal.hostReduceAdd_single h' h x (init (Shape.Idx.first hu)) (ix3 n k l)).trans ?_
  refine congrArg (init (Shape.Idx.first hu) + ·) ?_
  show ∑ i : Fin c, x (h.lift (ix3 n k l) i) = _
  exact Finset.sum_congr rfl fun i _ => congrArg x (lift_rows h n k l i)

/-- The host's sum over the coordinates of every row: at (n, k, i) the initial value plus the sum over l of the
    entries (n, k, i, l). -/
theorem hostSumCoords_apply {φ : FTy} {u : Shape} (x : FVec Ideal ⟨4, ![a, b, c, d]⟩ φ) (init : u.Idx → Ideal φ)
    (h' : (⟨4, ![a, b, c, d]⟩ : Shape).ReducesTo [(3 : Fin 4)] ⟨3, ![a, b, c]⟩)
    (h : (⟨4, ![a, b, c, d]⟩ : Shape).Reduces [(3 : Fin 4)] ⟨3, ![a, b, c]⟩) (hu : 0 < u.numel)
    (n : Fin a) (k : Fin b) (i : Fin c) :
    Host.reduceAdd x init h' hu (ix3 n k i) = init (Shape.Idx.first hu) + ∑ l : Fin d, x (ix4 n k i l) := by
  refine (Ideal.hostReduceAdd_single h' h x (init (Shape.Idx.first hu)) (ix3 n k i)).trans ?_
  refine congrArg (init (Shape.Idx.first hu) + ·) ?_
  show ∑ l : Fin d, x (h.lift (ix3 n k i) l) = _
  exact Finset.sum_congr rfl fun l _ => congrArg x (lift_coords h n k i l)

/-- The host's running maximum over the rows of every slab: at (n, k, l) the fold of max, from the initial value, over
    the entries (n, k, i, l). -/
theorem hostMaxRows_apply {φ : FTy} {u : Shape} (x : FVec Ideal ⟨4, ![a, b, c, d]⟩ φ) (init : u.Idx → Ideal φ)
    (h' : (⟨4, ![a, b, c, d]⟩ : Shape).ReducesTo [(2 : Fin 4)] ⟨3, ![a, b, d]⟩)
    (h : (⟨4, ![a, b, c, d]⟩ : Shape).Reduces [(2 : Fin 4)] ⟨3, ![a, b, d]⟩) (hu : 0 < u.numel)
    (n : Fin a) (k : Fin b) (l : Fin d) :
    Host.reduce (FloatOps.maximumf (F := Ideal) (φ := φ)) x init h' hu (ix3 n k l)
      = (Finset.univ : Finset (Fin c)).fold max (init (Shape.Idx.first hu)) (fun i => x (ix4 n k i l)) := by
  refine (Host.reduce_eq_fold_single (FloatOps.maximumf (F := Ideal) (φ := φ)) x init h' h hu (ix3 n k l)).trans ?_
  have e : (x ∘ h.lift (ix3 n k l)) = fun i => x (ix4 n k i l) := funext fun i => congrArg x (lift_rows h n k l i)
  show (Finset.univ : Finset (Fin c)).fold max (init (Shape.Idx.first hu)) (x ∘ h.lift (ix3 n k l)) = _
  rw [e]
  rfl

end Cert.HostSlabs

end
-- ==== Proof.HostRound.lean ====
/-
  What the reference computes, entry by entry, over the extended reals.

  The jnp reference keeps all 64 × 32 slabs in one four-axis array and every reduced axis as a unit axis.  Its run is
  cut here into the steps a routing round is made of — the unnormalised softmax weights of the logits, the weighted sum
  of the prediction vectors, its squared norm, the squash, and the logits raised by the agreements (a batched product
  contracting the coordinate axis) — and each step is read at an entry: slab (n, c) sees only its own data and
  computes on it the corresponding step of the routing specification.  So the reference's result holds, at (n, c, 0, l),
  coordinate l of two rounds of routing on slab (n, c).
-/
import proofs.«148642_j16234976379165_2_alg».proof.Proof.HostSteps
import proofs.«148642_j16234976379165_2_alg».proof.Proof.RoutingSpec
import proofs.«148642_j16234976379165_2_alg».proof.Proof.LibHostSlabs

noncomputable section

namespace Cert.ReferenceIdeal.Round

open Cert.ReferenceIdeal Cert.ReferenceIdeal.Gen Cert.ReferenceIdeal.Value Idealize.ShloMosaic Idealize.ShloMosaic.TcCoe
open Idealize.SL.Sem Idealize.ShloMosaic.StableHlo Idealize.ShloMosaic.ValueIdx Cert.Routing

/-! ## Each step at an entry -/

/-- Slab (n, c) of the prediction vectors. -/
abbrev slab (X : FVec Ideal S64x32x1152x16 .f32) (n : Fin 64) (c : Fin 32) : Fin 1152 → Fin 16 → EReal := fun i l => X (ix4 n c i l)
/-- Slab (n, c)'s column of an array of per-row scalars. -/
abbrev col (b : FVec Ideal S64x32x1152x1 .f32) (n : Fin 64) (c : Fin 32) : Fin 1152 → EReal := fun i => b (ix4 n c i (0 : Fin 1))
/-- Slab (n, c)'s vector. -/
abbrev vec (v : FVec Ideal S64x32x1x16 .f32) (n : Fin 64) (c : Fin 32) : Fin 16 → EReal := fun l => v (ix4 n c (0 : Fin 1) l)

/-- The running maximum of slab (n, c)'s column of logits, as the softmax takes it: from −∞, then against −∞ again. -/
theorem colMax_apply (b : FVec Ideal S64x32x1152x1 .f32) (n : Fin 64) (c : Fin 32) (u : Fin 1) :
    (maximumf (broadcastInDim S64x32x1 ![] bcast_S_S64x32x1 (constant (F := Ideal) S_ .f32 0xFF800000#32))
        (Host.reduce (FloatOps.maximumf (F := Ideal) (φ := .f32)) b (constant (F := Ideal) S_ .f32 0xFF800000#32)
          reducesTo_S64x32x1152x1_S64x32x1_d2 h_S_)) (ix3 n c u)
      = max NINF ((Finset.univ : Finset (Fin 1152)).fold max NINF (fun k => b (ix4 n c k u))) := by
  rw [maximumf_apply, broadcastInDim_scalar_apply]
  exact congrArg (max NINF) (Cert.HostSlabs.hostMaxRows_apply b _ _ (by decide) _ n c u)

theorem hExp_apply (b : FVec Ideal S64x32x1152x1 .f32) (n : Fin 64) (c : Fin 32) (i : Fin 1152) (u : Fin 1) :
    hExp b (ix4 n c i u) = expw (col b n c) i := by
  obtain rfl : u = 0 := Subsingleton.elim _ _
  unfold hExp expw
  show Ideal.exp (b (ix4 n c i 0) - broadcastInDim (s := S64x32x1x1) S64x32x1152x1 ![0, 1, 2, 3] _ _ (ix4 n c i 0)) = _
  rw [Cert.HostSlabs.bcast_ab11_abcd_apply, Cert.HostSlabs.bcast_ab1_abpq_apply _ rfl rfl]
  exact congrArg (fun t => Ideal.exp (b (ix4 n c i 0) - t)) (colMax_apply b n c 0)

theorem hSj_apply (e : FVec Ideal S64x32x1152x1 .f32) (X : FVec Ideal S64x32x1152x16 .f32) (n : Fin 64) (c : Fin 32)
    (u : Fin 1) (l : Fin 16) :
    hSj e X (ix4 n c u l) = sjOf (slab X n c) (col e n c) (∑ k : Fin 1152, col e n c k) l := by
  unfold hSj sjOf
  rw [Cert.HostSlabs.bcast_abd_ab1d_apply]
  refine (Cert.HostSlabs.hostSumRows_apply _ _ _ (by decide) _ n c l).trans ?_
  show Ideal.ofBits .f32 0x00000000#32 + _ = _
  rw [Ideal.ofBits_zero_f32, zero_add]
  refine Finset.sum_congr rfl fun k _ => ?_
  show broadcastInDim (s := S64x32x1152x1) S64x32x1152x16 ![0, 1, 2, 3] _ _ (ix4 n c k l) * X (ix4 n c k l) = _
  rw [Cert.HostSlabs.bcast_abc1_abcd_apply]
  show Ideal.div (e (ix4 n c k 0)) (broadcastInDim (s := S64x32x1x1) S64x32x1152x1 ![0, 1, 2, 3] _ _ (ix4 n c k 0)) * X (ix4 n c k l) = _
  rw [Cert.HostSlabs.bcast_ab11_abcd_apply, Cert.HostSlabs.bcast_ab1_abpq_apply _ rfl rfl]
  refine congrArg (fun s => Ideal.div (e (ix4 n c k 0)) s * X (ix4 n c k l)) ?_
  refine (Cert.HostSlabs.hostSumRows_apply e _ _ (by decide) _ n c 0).trans ?_
  show Ideal.ofBits .f32 0x00000000#32 + _ = _
  rw [Ideal.ofBits_zero_f32, zero_add]

theorem hSq_apply (v : FVec Ideal S64x32x1x16 .f32) (n : Fin 64) (c : Fin 32) (u w : Fin 1) :
    hSq v (ix4 n c u w) = sqOf (vec v n c) := by
  unfold hSq sqOf
  rw [Cert.HostSlabs.bcast_ab1_abpq_apply _ rfl rfl]
  refine (Cert.HostSlabs.hostSumCoords_apply (mulf v v) _ _ (by decide) _ n c 0).trans ?_
  show Ideal.ofBits .f32 0x00000000#32 + _ = _
  rw [Ideal.ofBits_zero_f32, zero_add]
  rfl

theorem hSquash_apply (q : FVec Ideal S64x32x1x1 .f32) (v : FVec Ideal S64x32x1x16 .f32) (n : Fin 64) (c : Fin 32)
    (u : Fin 1) (l : Fin 16) :
    hSquash q v (ix4 n c u l) = squash (q (ix4 n c (0 : Fin 1) (0 : Fin 1))) (v (ix4 n c u l)) := by
  unfold hSquash squash
  show broadcastInDim (s := S64x32x1x1) S64x32x1x16 ![0, 1, 2, 3] _ _ (ix4 n c u l)
    * Ideal.div (v (ix4 n c u l)) (broadcastInDim (s := S64x32x1x1) S64x32x1x16 ![0, 1, 2, 3] _ _ (ix4 n c u l)) = _
  rw [Cert.HostSlabs.bcast_ab11_abcd_apply, Cert.HostSlabs.bcast_ab11_abcd_apply]
  rfl

/-! ### The batched product that raises the logits -/

/-- The product's dimension numbers: batch axes (0, 1), the coordinate axis contracted. -/
abbrev D : DotDims S64x32x1152x16 S64x32x1x16 S64x32x1152x1 := dot_S64x32x1152x16_S64x32x1x16_S64x32x1152x1_3_3_2_2_01_01

theorem lhs_0 (i : S64x32x1152x1.Idx) (k : D.contr.Idx) : (D.lhsIdx i k 0).val = (i 0).val := by
  unfold DotDims.lhsIdx
  rw [dif_pos (show (0 : Fin S64x32x1152x16.rank) ∈ D.lhsBatch by decide)]
  rfl
theorem lhs_1 (i : S64x32x1152x1.Idx) (k : D.contr.Idx) : (D.lhsIdx i k 1).val = (i 1).val := by
  unfold DotDims.lhsIdx
  rw [dif_pos (show (1 : Fin S64x32x1152x16.rank) ∈ D.lhsBatch by decide)]
  rfl
theorem lhs_2 (i : S64x32x1152x1.Idx) (k : D.contr.Idx) : (D.lhsIdx i k 2).val = (i 2).val := by
  unfold DotDims.lhsIdx
  rw [dif_neg (show ¬(2 : Fin S64x32x1152x16.rank) ∈ D.lhsBatch by decide), dif_pos (show (2 : Fin S64x32x1152x16.rank) ∈ D.lhsNonContracting by decide)]
  rfl
theorem lhs_3 (i : S64x32x1152x1.Idx) (k : D.contr.Idx) : (D.lhsIdx i k 3).val = (k ⟨0, by decide⟩).val :=
  D.lhsIdx_val_of_single rfl i k
theorem rhs_0 (i : S64x32x1152x1.Idx) (k : D.contr.Idx) : (D.rhsIdx i k 0).val = (i 0).val := by
  unfold DotDims.rhsIdx
  rw [dif_pos (show (0 : Fin S64x32x1x16.rank) ∈ D.rhsBatch by decide)]
  rfl
theorem rhs_1 (i : S64x32x1152x1.Idx) (k : D.contr.Idx) : (D.rhsIdx i k 1).val = (i 1).val := by
  unfold DotDims.rhsIdx
  rw [dif_pos (show (1 : Fin S64x32x1x16.rank) ∈ D.rhsBatch by decide)]
  rfl
theorem rhs_2 (i : S64x32x1152x1.Idx) (k : D.contr.Idx) : (D.rhsIdx i k 2).val = (i 3).val := by
  unfold DotDims.rhsIdx
  rw [dif_neg (show ¬(2 : Fin S64x32x1x16.rank) ∈ D.rhsBatch by decide), dif_pos (show (2 : Fin S64x32x1x16.rank) ∈ D.rhsNonContracting by decide)]
  rfl
theorem rhs_3 (i : S64x32x1152x1.Idx) (k : D.contr.Idx) : (D.rhsIdx i k 3).val = (k ⟨0, by decide⟩).val :=
  D.rhsIdx_val_of_single rfl i k

/-- The batched product at (n, c, i, 0): the agreement of prediction vector i of slab (n, c) with the slab's vector. -/
theorem dot_apply (X : FVec Ideal S64x32x1152x16 .f32) (v : FVec Ideal S64x32x1x16 .f32) (n : Fin 64) (c : Fin 32)
    (i : Fin 1152) (u : Fin 1) :
    Host.dotGeneral D none X v (ix4 n c i u) = ∑ l : Fin 16, X (ix4 n c i l) * v (ix4 n c (0 : Fin 1) l) := by
  simp only [Host.dotGeneral]
  rw [Ideal.dotGeneral_apply, ← Equiv.sum_comp (contrEquiv1 D 16 rfl rfl).symm]
  refine Finset.sum_congr rfl fun k _ => ?_
  have hk := contrEquiv1_symm_val D 16 rfl rfl k
  have hu : u.val = (0 : Fin 1).val := by omega
  have el : D.lhsIdx (ix4 n c i u) ((contrEquiv1 D 16 rfl rfl).symm k) = ix4 n c i k := funext fun a => Fin.ext (by
    match a with
    | ⟨0, _⟩ => exact lhs_0 _ _
    | ⟨1, _⟩ => exact lhs_1 _ _
    | ⟨2, _⟩ => exact lhs_2 _ _
    | ⟨3, _⟩ => exact (lhs_3 _ _).trans hk)
  have er : D.rhsIdx (ix4 n c i u) ((contrEquiv1 D 16 rfl rfl).symm k) = ix4 n c (0 : Fin 1) k := funext fun a => Fin.ext (by
    match a with
    | ⟨0, _⟩ => exact rhs_0 _ _
    | ⟨1, _⟩ => exact rhs_1 _ _
    | ⟨2, _⟩ => exact (rhs_2 _ _).trans hu
    | ⟨3, _⟩ => exact (rhs_3 _ _).trans hk)
  rw [el, er]

theorem hNext_apply (b : FVec Ideal S64x32x1152x1 .f32) (X : FVec Ideal S64x32x1152x16 .f32) (v : FVec Ideal S64x32x1x16 .f32)
    (n : Fin 64) (c : Fin 32) (i : Fin 1152) (u : Fin 1) :
    hNext b X v (ix4 n c i u) = bNext (slab X n c) (col b n c) (vec v n c) i := by
  obtain rfl : u = 0 := Subsingleton.elim _ _
  unfold hNext bNext
  show b (ix4 n c i 0) + Host.dotGeneral D none X v (ix4 n c i 0) = _
  rw [dot_apply]

/-! ## The rounds at an entry -/

/-- One round: slab (n, c) gets one round of the specification on its own data. -/
theorem hRound_apply (b : FVec Ideal S64x32x1152x1 .f32) (X : FVec Ideal S64x32x1152x16 .f32) (n : Fin 64) (c : Fin 32)
    (u : Fin 1) (l : Fin 16) :
    hRound b X (ix4 n c u l) = roundOf (slab X n c) (col b n c) l := by
  unfold hRound roundOf vjOf
  rw [hSquash_apply, hSq_apply]
  have he : col (hExp b) n c = expw (col b n c) := funext fun k => hExp_apply b n c k 0
  have hsj : ∀ (u' : Fin 1) (l' : Fin 16), hSj (hExp b) X (ix4 n c u' l')
      = sjOf (slab X n c) (expw (col b n c)) (∑ k : Fin 1152, expw (col b n c) k) l' := by
    intro u' l'
    rw [hSj_apply, he]
  have hvec : vec (hSj (hExp b) X) n c = sjOf (slab X n c) (expw (col b n c)) (∑ k : Fin 1152, expw (col b n c) k) :=
    funext fun l' => hsj 0 l'
  rw [hvec, hsj u l]

/-- THE REFERENCE: its result holds, at (n, c, 0, l), coordinate l of two rounds of routing on slab (n, c). -/
theorem hRoute_apply (X : FVec Ideal S64x32x1152x16 .f32) (n : Fin 64) (c : Fin 32) (u : Fin 1) (l : Fin 16) :
    hRoute X (ix4 n c u l) = route (slab X n c) l := by
  unfold hRoute route
  rw [hRound_apply]
  have hb : col (hNext zeroLogits X (hRound zeroLogits X)) n c
      = bNext (slab X n c) (fun _ => ZERO) (roundOf (slab X n c) (fun _ => ZERO)) := by
    funext i
    show hNext zeroLogits X _ (ix4 n c i 0) = _
    rw [hNext_apply]
    have hv : vec (hRound zeroLogits X) n c = roundOf (slab X n c) (col zeroLogits n c) :=
      funext fun l' => hRound_apply zeroLogits X n c 0 l'
    rw [hv]
    rfl
  rw [hb]

/-- The reference's result is the routed array of the argument. -/
theorem hRoute_eq (X : FVec Ideal S64x32x1152x16 .f32) : hRoute X = routed X := by
  funext j
  obtain ⟨n, c, u, l, rfl⟩ : ∃ (n : Fin 64) (c : Fin 32) (u : Fin 1) (l : Fin 16), j = ix4 n c u l :=
    ⟨j 0, j 1, j 2, j 3, eq_ix4 j⟩
  exact hRoute_apply X n c u l

end Cert.ReferenceIdeal.Round

end
-- ==== Proof.lean ====
/-
  Capsule routing: a kernel that keeps sixteen slabs resident and runs two routing rounds on them, against the jnp
  reference that runs the same two rounds on all 64 × 32 slabs at once.

  Both programs compute, for every (sample, class) pair, two rounds of dynamic routing on that pair's slab of
  prediction vectors (Proof/RoutingSpec.lean): a softmax of the logits over the input capsules, the weighted sum of the
  prediction vectors, its squash, and the logits raised by the agreements.  The kernel reads the argument as 2048 slabs
  in blocks of sixteen and spells a round with lane and sublane reductions (Proof/KernelBlock.lean); what its launch
  leaves in the result array is read off the generated frame run (Proof/KernelValue.lean).  The reference spells a
  round with host reductions that keep unit axes and a batched product (Proof/HostSteps.lean, Proof/HostRound.lean).
  Entry by entry both are the same function of the slab, with the same operations in the same places; only the order of
  the sums inside a slab is left open, and sums over the extended reals do not depend on it.  No step uses that the
  inputs are finite.

  The ideal pass rewrote nothing, so the idealized kernel is the kernel's own text read over the extended reals.
-/
import proofs.«148642_j16234976379165_2_alg».proof.Defs
import proofs.«148642_j16234976379165_2_alg».proof.Proof.Gen.Kernel
import proofs.«148642_j16234976379165_2_alg».proof.Proof.Gen.Kernel.Skeleton
import proofs.«148642_j16234976379165_2_alg».proof.Proof.Gen.Kernel.Launch
import proofs.«148642_j16234976379165_2_alg».proof.Proof.Gen.Kernel.Points
import proofs.«148642_j16234976379165_2_alg».proof.Proof.Gen.Kernel.Frame
import proofs.«148642_j16234976379165_2_alg».proof.Proof.Gen.KernelIdeal
import proofs.«148642_j16234976379165_2_alg».proof.Proof.Gen.KernelIdeal.Skeleton
import proofs.«148642_j16234976379165_2_alg».proof.Proof.Gen.KernelIdeal.Launch
import proofs.«148642_j16234976379165_2_alg».proof.Proof.Gen.KernelIdeal.Points
import proofs.«148642_j16234976379165_2_alg».proof.Proof.Gen.KernelIdeal.Frame
import proofs.«148642_j16234976379165_2_alg».proof.Proof.Gen.ReferenceIdeal
import proofs.«148642_j16234976379165_2_alg».proof.Proof.Gen.ReferenceIdeal.Run
import proofs.«148642_j16234976379165_2_alg».proof.Proof.Gen.Pre_finite_inputs
import proofs.«148642_j16234976379165_2_alg».proof.Proof.KernelValue
import proofs.«148642_j16234976379165_2_alg».proof.Proof.HostRound
import Idealize.ShloMosaic.Adequacy
import Idealize.ShloMosaic.Init

noncomputable section

namespace Cert.Proof

open Idealize.ShloMosaic Idealize.ShloMosaic.TcCoe Idealize.SL.Sem Cert.Routing

/-- The kernel's program runs and leaves its argument as it was. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and leaves its argument as it was: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, both programs end with the routed array of the argument: the kernel's result array
    by its frame run read block by block, the reference's by its run read step by step. -/
theorem algebraic : Cert.algebraic_KernelIdeal_ReferenceIdeal := by
  intro m ρ m' ρ' _ hagree
  refine ⟨fun c => routed (m ((c.tc : Thread Cert.KernelIdeal.nD Cert.KernelIdeal.τ).loc Cert.KernelIdeal.main_arg0)),
    Cert.KernelIdeal.Routed.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Round.result_eq, Cert.ReferenceIdeal.Round.hRoute_eq]
  exact congrArg routed (hagree c)

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
